-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S500x1024 : Shape := ⟨2, ![500, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S500x1024 : S_.BroadcastsInDim S500x1024 (![] : Fin 0 → Fin S500x1024.rank)
  reducesTo_S500x1024_S_d0_1 : S500x1024.ReducesTo [0, 1] S_

variable [Facts]

def fn {F : FTy → Type} [FloatOps F] (main_arg0 : FVec F S512x1024 .f32) (main_arg1 : FVec F S500x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S500x1024 .f32 := Host.absf main_arg1
  let main_cst_0 : FVec F S_ .f32 := constant S_ .f32 0x7F800000#32
  let main_v5 : FVec F S500x1024 .f32 := broadcastInDim S500x1024 ![] bcast_S_S500x1024 main_cst_0
  let main_v6 : IVec S500x1024 1 := cmpf .olt main_v4 main_v5
  let main_c_1 : IVec S_ 1 := constantI S_ 1 1#1
  let main_v7 : IVec S_ 1 := (fun x v => Host.reduce IntOp.andi x v reducesTo_S500x1024_S_d0_1 h_S_) main_v6 main_c_1
  let main_v8 : IVec S_ 1 := andi main_v3 main_v7
  main_v8
-- ==== Kernel.lean ====
abbrev S512x1024 : Shape := ⟨2, ![512, 1024]⟩
abbrev S500x1024 : Shape := ⟨2, ![500, 1024]⟩
abbrev S100x5x1024 : Shape := ⟨3, ![100, 5, 1024]⟩
abbrev S5x100x1024 : Shape := ⟨3, ![5, 100, 1024]⟩
abbrev S512x500 : Shape := ⟨2, ![512, 500]⟩
abbrev S512x5x100 : Shape := ⟨3, ![512, 5, 100]⟩
abbrev S512x1124 : Shape := ⟨2, ![512, 1124]⟩
abbrev S128x5x100 : Shape := ⟨3, ![128, 5, 100]⟩
abbrev S128x1024 : Shape := ⟨2, ![128, 1024]⟩
abbrev S128x1124 : Shape := ⟨2, ![128, 1124]⟩
abbrev S128x100 : Shape := ⟨2, ![128, 100]⟩
abbrev S128x1x100 : Shape := ⟨3, ![128, 1, 100]⟩
abbrev S1x128x100 : Shape := ⟨3, ![1, 128, 100]⟩
abbrev S128x128x100 : Shape := ⟨3, ![128, 128, 100]⟩

abbrev nBuf : Space → Nat
  | .hbm => 8
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S500x1024, .f32⟩
  | .hbm, ⟨2, _⟩ => ⟨S100x5x1024, .f32⟩
  | .hbm, ⟨3, _⟩ => ⟨S5x100x1024, .f32⟩
  | .hbm, ⟨4, _⟩ => ⟨S500x1024, .f32⟩
  | .hbm, ⟨5, _⟩ => ⟨S512x500, .f32⟩
  | .hbm, ⟨6, _⟩ => ⟨S512x5x100, .f32⟩
  | .hbm, ⟨7, _⟩ => ⟨S512x1124, .f32⟩
  | .local _ .vmem, ⟨0, _⟩ => ⟨S512x1024, .f32⟩
  | .local _ .vmem, ⟨1, _⟩ => ⟨S500x1024, .f32⟩
  | .local _ .vmem, ⟨2, _⟩ => ⟨S512x500, .f32⟩
  | .local _ .vmem, ⟨3, _⟩ => ⟨S128x5x100, .f32⟩
  | .local _ .vmem, ⟨4, _⟩ => ⟨S128x5x100, .f32⟩
  | .local _ .vmem, ⟨5, _⟩ => ⟨S128x5x100, .f32⟩
  | .local _ .vmem, ⟨6, _⟩ => ⟨S128x5x100, .f32⟩
  | .local _ .vmem, ⟨7, _⟩ => ⟨S128x1024, .f32⟩
  | .local _ .vmem, ⟨8, _⟩ => ⟨S128x1024, .f32⟩
  | .local _ .vmem, ⟨9, _⟩ => ⟨S128x1124, .f32⟩
  | .local _ .vmem, ⟨10, _⟩ => ⟨S128x1124, .f32⟩
  | .local _ .vmem, ⟨11, _⟩ => ⟨S128x100, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S500x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v66 : BitVec 1 := Scalar.cmpi .eq arg1 c3_i32
  let v67 : BitVec 32 := Scalar.extui v66
  let c0_i32_31 : BitVec 32 := 0#32
  let v68 : BitVec 1 := Scalar.cmpi .ne v67 c0_i32_31
  v68

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x5x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x5x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x1124 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S500x1024_S100x5x1024 : S500x1024.ShapeCasts S100x5x1024
  transposes_S100x5x1024_S5x100x1024_1_0_2 : S100x5x1024.Transposes [1, 0, 2] S5x100x1024
  shapeCasts_S5x100x1024_S500x1024 : S5x100x1024.ShapeCasts S500x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S500x1024_S500x1024_0_0 : ∀ a, (![0, 0] : Fin 2 → Nat) a + S500x1024.size a ≤ S500x1024.size a
  h_S500x1024 : 0 < S500x1024.numel
  shapeCasts_S500x1024_S500x1024 : S500x1024.ShapeCasts S500x1024
  inb_S512x500_S512x500_0_0 : ∀ a, (![0, 0] : Fin 2 → Nat) a + S512x500.size a ≤ S512x500.size a
  h_S512x500 : 0 < S512x500.numel
  shapeCasts_S512x500_S512x5x100 : S512x500.ShapeCasts S512x5x100
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S128x5x100_S128x1x100_0_0_0 : ∀ a, (![0, 0, 0] : Fin 3 → Nat) a + S128x1x100.size a ≤ S128x5x100.size a
  h_S128x1x100 : 0 < S128x1x100.numel
  shapeCasts_S128x1x100_S128x100 : S128x1x100.ShapeCasts S128x100
  shapeCasts_S128x100_S128x1x100 : S128x100.ShapeCasts S128x1x100
  shapeCasts_S128x100_S1x128x100 : S128x100.ShapeCasts S1x128x100
  broadcasts_S128x1x100_S128x128x100 : S128x1x100.Broadcasts S128x128x100
  broadcasts_S1x128x100_S128x128x100 : S1x128x100.Broadcasts S128x128x100
  inb_S128x5x100_S128x1x100_0_1_0 : ∀ a, (![0, 1, 0] : Fin 3 → Nat) a + S128x1x100.size a ≤ S128x5x100.size a
  inb_S128x5x100_S128x1x100_0_2_0 : ∀ a, (![0, 2, 0] : Fin 3 → Nat) a + S128x1x100.size a ≤ S128x5x100.size a
  inb_S128x5x100_S128x1x100_0_3_0 : ∀ a, (![0, 3, 0] : Fin 3 → Nat) a + S128x1x100.size a ≤ S128x5x100.size a
  inb_S128x5x100_S128x1x100_0_4_0 : ∀ a, (![0, 4, 0] : Fin 3 → Nat) a + S128x1x100.size a ≤ S128x5x100.size a
  reduces_S128x128x100_S128x100 : S128x128x100.Reduces [1] S128x100
  inb_S128x1024_S128x1024_0_0 : ∀ a, (![0, 0] : Fin 2 → Nat) a + S128x1024.size a ≤ S128x1024.size a
  h_S128x1024 : 0 < S128x1024.numel
  inb_S128x1124_S128x1024_0_0 : ∀ a, (![0, 0] : Fin 2 → Nat) a + S128x1024.size a ≤ S128x1124.size a
  inb_S128x1124_S128x100_0_1024 : ∀ a, (![0, 1024] : Fin 2 → Nat) a + S128x100.size a ≤ S128x1124.size a
  dot_S512x1024_S500x1024_S512x500_1_1_0_0_n_n_wf : DotDims.WF S512x1024 S500x1024 S512x500 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x1024.size a ≤ S500x1024.size a
  hwx0_1 : ∀ i : grid0.Coords, EltTy.bits .f32 = 32 ∨ (Rect.block (s := S500x1024) S500x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x500.size a ≤ S512x500.size a
  hwx0_2 : ∀ i : grid0.Coords, EltTy.bits .f32 = 32 ∨ (Rect.block (s := S512x500) S512x500.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5x100.size a ≤ S512x5x100.size a
  hwx1_0 : ∀ i : grid1.Coords, EltTy.bits .f32 = 32 ∨ (Rect.block (s := S512x5x100) S128x5x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x5x100.size a ≤ S512x5x100.size a
  hwx1_1 : ∀ i : grid1.Coords, EltTy.bits .f32 = 32 ∨ (Rect.block (s := S512x5x100) S128x5x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S512x1024.size a
  hwx1_2 : ∀ i : grid1.Coords, EltTy.bits .f32 = 32 ∨ (Rect.block (s := S512x1024) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1124.size a ≤ S512x1124.size a
  hwx1_3 : ∀ i : grid1.Coords, EltTy.bits .f32 = 32 ∨ (Rect.block (s := S512x1124) S128x1124.size (cc1_transform_3 i) (hinb1_3 i)).WholeWords (EltTy.packing .f32)

variable [Facts₀]

def dot_S512x1024_S500x1024_S512x500_1_1_0_0_n_n : DotDims S512x1024 S500x1024 S512x500 where
  lhsContracting := [1]
  rhsContracting := [1]
  lhsNonContracting := [0]
  rhsNonContracting := [0]
  lhsBatch := []
  rhsBatch := []
  wf := dot_S512x1024_S500x1024_S512x500_1_1_0_0_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S500x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x500.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S128x5x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x5x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x1124.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x1024 : Shape := ⟨2, ![512, 1024]⟩
abbrev S500x1024 : Shape := ⟨2, ![500, 1024]⟩
abbrev S512x500 : Shape := ⟨2, ![512, 500]⟩
abbrev S512x100x5 : Shape := ⟨3, ![512, 100, 5]⟩
abbrev S512x1x100x5 : Shape := ⟨4, ![512, 1, 100, 5]⟩
abbrev S1x512x100x5 : Shape := ⟨4, ![1, 512, 100, 5]⟩
abbrev S512x512x100x5 : Shape := ⟨4, ![512, 512, 100, 5]⟩
abbrev S_ : Shape := ⟨0, ![]⟩
abbrev S512x512x100 : Shape := ⟨3, ![512, 512, 100]⟩
abbrev S512x100 : Shape := ⟨2, ![512, 100]⟩
abbrev S512x1124 : Shape := ⟨2, ![512, 1124]⟩

abbrev nBuf : Space → Nat
  | .hbm => 20
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S500x1024, .f32⟩
  | .hbm, ⟨2, _⟩ => ⟨S512x500, .f32⟩
  | .hbm, ⟨3, _⟩ => ⟨S512x100x5, .f32⟩
  | .hbm, ⟨4, _⟩ => ⟨S512x1x100x5, .f32⟩
  | .hbm, ⟨5, _⟩ => ⟨S1x512x100x5, .f32⟩
  | .hbm, ⟨6, _⟩ => ⟨S512x512x100x5, .f32⟩
  | .hbm, ⟨7, _⟩ => ⟨S512x512x100x5, .f32⟩
  | .hbm, ⟨8, _⟩ => ⟨S512x512x100x5, .f32⟩
  | .hbm, ⟨9, _⟩ => ⟨S512x512x100x5, .f32⟩
  | .hbm, ⟨10, _⟩ => ⟨S_, .f32⟩
  | .hbm, ⟨11, _⟩ => ⟨S512x512x100, .f32⟩
  | .hbm, ⟨12, _⟩ => ⟨S512x512x100, .f32⟩
  | .hbm, ⟨13, _⟩ => ⟨S512x512x100, .f32⟩
  | .hbm, ⟨14, _⟩ => ⟨S_, .f32⟩
  | .hbm, ⟨15, _⟩ => ⟨S512x100, .f32⟩
  | .hbm, ⟨16, _⟩ => ⟨S_, .f32⟩
  | .hbm, ⟨17, _⟩ => ⟨S512x100, .f32⟩
  | .hbm, ⟨18, _⟩ => ⟨S512x100, .f32⟩
  | .hbm, ⟨19, _⟩ => ⟨S512x1124, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S512x500_S512x100x5 : S512x500.ShapeCasts S512x100x5
  bcast_S512x100x5_S512x1x100x5_0_2_3 : S512x100x5.BroadcastsInDim S512x1x100x5 (![0, 2, 3] : Fin 3 → Fin S512x1x100x5.rank)
  bcast_S512x100x5_S1x512x100x5_1_2_3 : S512x100x5.BroadcastsInDim S1x512x100x5 (![1, 2, 3] : Fin 3 → Fin S1x512x100x5.rank)
  bcast_S512x1x100x5_S512x512x100x5_0_1_2_3 : S512x1x100x5.BroadcastsInDim S512x512x100x5 (![0, 1, 2, 3] : Fin 4 → Fin S512x512x100x5.rank)
  bcast_S1x512x100x5_S512x512x100x5_0_1_2_3 : S1x512x100x5.BroadcastsInDim S512x512x100x5 (![0, 1, 2, 3] : Fin 4 → Fin S512x512x100x5.rank)
  reducesTo_S512x512x100x5_S512x512x100_d3 : S512x512x100x5.ReducesTo [3] S512x512x100
  h_S_ : 0 < S_.numel
  reducesTo_S512x512x100_S512x100_d1 : S512x512x100.ReducesTo [1] S512x100
  bcast_S_S512x100 : S_.BroadcastsInDim S512x100 (![] : Fin 0 → Fin S512x100.rank)
  concatenates_S512x1024_S512x100_S512x1124_d1 : Shape.Concatenates [S512x1024, S512x100] S512x1124 1
  dot_S512x1024_S500x1024_S512x500_1_1_0_0_n_n_wf : DotDims.WF S512x1024 S500x1024 S512x500 [1] [1] [0] [0] [] []

variable [Facts₀]

def dot_S512x1024_S500x1024_S512x500_1_1_0_0_n_n : DotDims S512x1024 S500x1024 S512x500 where
  lhsContracting := [1]
  rhsContracting := [1]
  lhsNonContracting := [0]
  rhsNonContracting := [0]
  lhsBatch := []
  rhsBatch := []
  wf := dot_S512x1024_S500x1024_S512x500_1_1_0_0_n_n_wf

class Facts : Prop extends Facts₀ where

variable [Facts]
-- ==== Proof.KRegion0.lean ====
/- REGION 0 of @main — the whole-array matrix product — as the pipeline library's per-region proof
   data, at a PARAMETER `V`: the TensorCore's buffer contents when the region is entered. The grid has one
   point; windows 0 and 1 (the left operand [512,1024] and the right operand [500,1024]) are fetched whole,
   window 2 (the product [512,500]) is written back whole. The body loads both operands, forms the product
   into a zero accumulator, and stores it through one whole-buffer rectangle. Stated for every float
   instance `F`. -/
import proofs.«150588_j51926154609300_2_alg».proof.Proof.Gen.Kernel.Launch
import proofs.«150588_j51926154609300_2_alg».proof.Proof.Gen.Kernel.Skeleton
import proofs.«150588_j51926154609300_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S512x1024 := Rect.unit (s := S512x1024) ![0, 0] S512x1024.size inb_S512x1024_S512x1024_0_0
abbrev r0_1 : Rect S500x1024 := Rect.unit (s := S500x1024) ![0, 0] S500x1024.size inb_S500x1024_S500x1024_0_0
abbrev r0_2 : Rect S512x500 := Rect.unit (s := S512x500) ![0, 0] S512x500.size inb_S512x500_S512x500_0_0

/-! ## What the body leaves in the output window's buffer -/

/-- Window 2's staging buffer after the body, from the input windows' blocks: its one store as a piece, the
    payload being the product of the two loaded operands. -/
def out0_2 (x0 : Vec F S512x1024 .f32) (x1 : Vec F S500x1024 .f32) : Vec F S512x500 .f32 :=
  View.canon [⟨r0_2, k0_pay1 (View.ld x0 r0_0) (View.ld x1 r0_1)⟩]

/-- The one store is through the whole rectangle, so it covers the buffer. -/
theorem cover0_2 (p0 : Vec F S512x500 .f32) (y : S512x500.Idx) :
    ∃ pc ∈ ([⟨r0_2, p0⟩] : List (View.Piece (Elt F) S512x500 .f32)), y ∈ pc.1.set :=
  View.cover_of_tiled [⟨r0_2, p0⟩] S512x500.size (by rfl) y

/-! ## The body's triple -/

set_option maxHeartbeats 1000000 in
/-- The kernel body on whole staging memrefs, the inputs' at read contents `x0`, `x1` and the output's at
    anything, runs to the continuation holding the inputs' as they were and the output's at `out0_2` of the
    inputs'. The body also reads the output buffer once before storing; that read is discarded. -/
theorem sound_kernel0 (c : Dev nD) (E : Set ℕ) (i : grid0.Coords) (arg1 : Memref sig .tc .vmem S512x1024 .f32) (harg1 : arg1.IsWhole) (arg2 : Memref sig .tc .vmem S500x1024 .f32) (harg2 : arg2.IsWhole) (arg3 : Memref sig .tc .vmem S512x500 .f32) (harg3 : arg3.IsWhole)
    (x0 : Vec F S512x1024 .f32) (x1 : Vec F S500x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so
    `sound_kernel0` applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KRegion1Shared.lean ====
/-
  The second pallas_call (the pairwise kernel on its 4 x 4 grid), first part: what every case of its body shares.
  A grid point t has row i = t / 4 and column j = t % 4. The body zeroes its accumulator when j = 0, adds to it the
  row sums of exp(0 - |d0| - ... - |d4|) over the column block's 128 rows at every point, and when j = 3 stores the
  row block of x and the accumulator minus one into the output block. So the output window is untouched where j < 3,
  and the accumulator is carried from one point to the next within a row.
-/
import proofs.«150588_j51926154609300_2_alg».proof.Proof.Gen.Kernel.Launch
import proofs.«150588_j51926154609300_2_alg».proof.Proof.Gen.Kernel.Skeleton
import proofs.«150588_j51926154609300_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, from the grid coordinates -/

/-- The first condition: the column coordinate is 0 (the accumulator is zeroed). -/
abbrev cond1_0 (i : grid1.Coords) : Prop := (Scalar.cmpi .ne (Scalar.extui (Scalar.cmpi .eq (BitVec.ofNat 32 (i 1).val) 0#32)) 0#32) = 1#1
/-- It holds exactly at the first point of each row of the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition: the column coordinate is 3 (the output block is stored). -/
abbrev cond1_1 (i : grid1.Coords) : Prop := k1_cond2 i = 1#1
/-- It holds exactly at the last point of each row of the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output block is not stored the output window is idle, -/
theorem idleAt1_3 : ∀ t : Fin cfg1.N, ¬cond1_1 (grid1.coords t) → cfg1.idle 3 (grid1.coords t) = true := by decide +kernel
/-- and not written back; -/
theorem noFlush1_3 : ∀ t : Fin cfg1.N, ¬cond1_1 (grid1.coords t) → (cfg1.win 3).flush t = false := by decide +kernel
/-- where it is stored the window is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S128x5x100 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x5x100 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1124 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x100 .f32 := Memref.whole cc1_scratch0
abbrev VS1_0 : View sig .tc .vmem S128x100 .f32 := scM1_0.view
/-- One staging buffer of the output window, through which its contents are stated. -/
abbrev VO1_3 : View sig .tc .vmem S128x1124 .f32 := (Memref.whole cc1_stg3_0 : Memref sig .tc .vmem S128x1124 .f32).view

end Cert.Kernel.Hand

end
-- ==== Proof.KRegion1RunA.lean ====
/-
  The pairwise kernel's body at a point with column 0: the accumulator is zeroed and the point's row sums added;
  the output block is not touched.
-/
import proofs.«150588_j51926154609300_2_alg».proof.Proof.KRegion1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Column 0. The accumulator may hold anything before; the output block is handed back as found. The accumulator
    ends with the body's two stores into it, the later one first. -/
noncomputable def kernelRun1_A (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : cond1_0 i) (hc1 : ¬cond1_1 i)
    (x0 : Vec F S128x5x100 .f32) (x1 : Vec F S128x5x100 .f32) :
    { LS0 : List (View.Piece (Elt F) S128x100 .f32) //
      ∀ (x2 : Vec F S128x1024 .f32) (xi3 : Vec F S128x1124 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, fun x2 xi3 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1RunB.lean ====
/-
  The pairwise kernel's body at a point with column 1 or 2: the point's row sums are added to the accumulator;
  the output block is not touched.
-/
import proofs.«150588_j51926154609300_2_alg».proof.Proof.KRegion1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Columns 1 and 2. The accumulator holds what the point before left; the output block is handed back as found. -/
noncomputable def kernelRun1_B (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : ¬cond1_1 i)
    (x0 : Vec F S128x5x100 .f32) (x1 : Vec F S128x5x100 .f32) (xs0 : Vec F S128x100 .f32) :
    { LS0 : List (View.Piece (Elt F) S128x100 .f32) //
      ∀ (x2 : Vec F S128x1024 .f32) (xi3 : Vec F S128x1124 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, fun x2 xi3 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1RunC.lean ====
/-
  The pairwise kernel's body at a point with column 3: the point's row sums are added to the accumulator, then the
  row block of x and the accumulator minus one are stored side by side into the output block.
-/
import proofs.«150588_j51926154609300_2_alg».proof.Proof.KRegion1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Column 3. The accumulator holds what the point before left; the output block may hold anything before and ends
    with the two stored pieces. -/
noncomputable def kernelRun1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 : Vec F S128x5x100 .f32) (x1 : Vec F S128x5x100 .f32) (x2 : Vec F S128x1024 .f32) (xs0 : Vec F S128x100 .f32) :
    Σ' (L3 : List (View.Piece (Elt F) S128x1124 .f32)), { LS0 : List (View.Piece (Elt F) S128x100 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KRegion1Dat.lean ====
/-
  The pairwise kernel on its grid, second part: what the accumulator and the output block hold after every grid
  point, the invariant carried from point to point (the accumulator at the running row sums of its grid row), the
  proof data of the pipeline and its body obligation. The array the first two windows read is one array: each of
  the two holds half of it.
-/
import proofs.«150588_j51926154609300_2_alg».proof.Proof.KRegion1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Column 0: the accumulator's pieces cover it. -/
theorem scover1_A (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : cond1_0 i) (hc1 : ¬cond1_1 i)
    (x0 x1 : Vec F S128x5x100 .f32) (y : S128x100.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S128x100.size (by sl_kernel_rfl) y
/-- What column 0 leaves in the accumulator. -/
def sout1_A (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : cond1_0 i) (hc1 : ¬cond1_1 i)
    (x0 x1 : Vec F S128x5x100 .f32) : Vec F S128x100 .f32 :=
  VS1_0.read (Elt F) (VS1_0.writes (Elt F) VS1_0.junk (kernelRun1_A c i arg2 harg2 arg3 harg3 arg4 harg4 arg5 harg5 arg6 harg6 hc0 hc1 x0 x1).1)

/-- Columns 1, 2: the accumulator's pieces cover it. -/
theorem scover1_B (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : ¬cond1_1 i)
    (x0 x1 : Vec F S128x5x100 .f32) (xs0 : Vec F S128x100 .f32) (y : S128x100.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S128x100.size (by sl_kernel_rfl) y
/-- What columns 1, 2 leave in the accumulator. -/
def sout1_B (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : ¬cond1_1 i)
    (x0 x1 : Vec F S128x5x100 .f32) (xs0 : Vec F S128x100 .f32) : Vec F S128x100 .f32 :=
  VS1_0.read (Elt F) (VS1_0.writes (Elt F) VS1_0.junk (kernelRun1_B c i arg2 harg2 arg3 harg3 arg4 harg4 arg5 harg5 arg6 harg6 hc0 hc1 x0 x1 xs0).1)

/-- Column 3: the accumulator's pieces cover it, -/
theorem scover1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) (y : S128x100.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x100.size (by sl_kernel_rfl) y
/-- what it leaves in the accumulator, -/
def sout1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) : Vec F S128x100 .f32 :=
  VS1_0.read (Elt F) (VS1_0.writes (Elt F) VS1_0.junk (kernelRun1_C c i arg2 harg2 arg3 harg3 arg4 harg4 arg5 harg5 arg6 harg6 hc0 hc1 x0 x1 x2 xs0).2.1)
/-- the output block's two pieces, 1024 and 100 columns wide, cut into blocks 4 columns wide, tile it, -/
theorem cover1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) (y : S128x1124.Idx) :
    ∃ pc ∈ (kernelRun1_C c i arg2 harg2 arg3 harg3 arg4 harg4 arg5 harg5 arg6 harg6 hc0 hc1 x0 x1 x2 xs0).1, y ∈ pc.1.set :=
  View.cover_of_tiledBy (kernelRun1_C c i arg2 harg2 arg3 harg3 arg4 harg4 arg5 harg5 arg6 harg6 hc0 hc1 x0 x1 x2 xs0).1 ![128, 4] (by sl_kernel_rfl) y
/-- and what it leaves in the output block. -/
def out1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) : Vec F S128x1124 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where the output block is not stored nothing consults its contents: a placeholder. -/
def out1_idle : Vec F S128x1124 .f32 := VO1_3.read (Elt F) (VO1_3.writes (Elt F) VO1_3.junk [])

/-! ## What the output block and the accumulator hold after each point -/

/-- After the body at position n: the output block, and the accumulator — started afresh at a row's first point,
    otherwise continued from what the point before left. -/
def outsAt1 (c : Dev nD) : (n : ℕ) → n < cfg1.N → Vec F S128x1124 .f32 × Vec F S128x100 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (out1_idle, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that this pallas_call does not stage: the first call's three staging buffers at any
    contents, and the accumulator as S says. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ S)

theorem PhiA1_eq (c : Dev nD) :
    (Pipeline.ΦA spec1 c : sProp 𝕄) = iprop(restWith c (iprop(∃ d, owns (c : Thread nD τ) scM1_0 fullShare d)) ∗ (∃ r, prngReg c r)) := by
  unfold Pipeline.ΦA restWith; rw [scopedRest1_eq]; simp only [scM1_0, owns_whole]; try rfl

/-- Before position n: before the first point the accumulator holds anything; afterwards what the point before left. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body each input's buffer at its block and the output's at what
    the points leave; the invariant above; nothing owed. The two windows on one array hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.KRegion1Body.lean ====
/-
  The pairwise kernel on its grid, third part: the body obligation of the pipeline at a generic grid point, by the
  point's column (0; 1 or 2; 3), and the invariant's two ends.
-/
import proofs.«150588_j51926154609300_2_alg».proof.Proof.KRegion1Dat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's column says which case runs; the
    invariant hands over the accumulator at what the point before left (anything at a row's first point) and takes
    it back at this point's contents; where the output block is not stored its buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 16 := lt_of_lt_of_eq t.isLt (show cfg1.N = 16 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [outsAt1_A V c t h0 h1]
    unfold sout1_A; (try dsimp only)
    by_cases hz : t.val = 0
    · rw [PhiS_castSucc V c t, PhiS_zero V c _ _ hz, PhiA1_eq]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C sout1_C; (try dsimp only)
      rw [PhiS_castSucc V c t, PhiS_pos V c _ _ hz]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold sout1_B; (try dsimp only)
      rw [PhiS_castSucc V c t, PhiS_pos V c _ _ hz]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands over is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the same back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold restWith
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.KRun.lean ====
/-
  The whole run of the program: its host operations and its two pallas_calls in order, each region entered from
  what the segment before it left. The buffer contents at each boundary are a fold from the launch memory; at the end
  every unscoped buffer is read back at the last boundary's contents.
-/
import proofs.«150588_j51926154609300_2_alg».proof.Proof.KRegion0
import proofs.«150588_j51926154609300_2_alg».proof.Proof.KRegion1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the permutation of the weight rows (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape of the projection (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second call's exit: the result array at what the write-backs leave, every other buffer as entered. -/
def W4 (c : Dev nD) : Valuation τ sig (Elt F) :=
  Function.update (W3 m c) main_v5 ((dat1 (V3 m) c).arrAt 3 cfg1.N)
abbrev V4 : (c : Dev nD) → (b : Ref sig .tc) → Buf (Elt F) ((c : Thread nD τ).loc b) := fun c b => W4 m c b
theorem W4_main_v5 (c : Dev nD) : W4 m c main_v5 = (dat1 (V3 m) c).arrAt 3 cfg1.N := by
  unfold W4; exact Function.update_self ..
theorem W4_of_ne (c : Dev nD) (r : Ref sig .tc) (h : r ≠ main_v5) : W4 m c r = W3 m c r := by
  unfold W4; exact Function.update_of_ne (StableHlo.devRef_ne_of_ne h) _ _

/-! ## The second call's arrays, one by one -/

/-- Its arrays: the projection held in two halves by the two windows that read it, x and the result held whole. -/
theorem arrays1_eq (V : (c : Dev nD) → (b : Ref sig .tc) → Buf (Elt F) ((c : Thread nD τ).loc b)) (c : Dev nD)
    (Fn : (w : Fin cfg1.W) → Buf (Elt F) ((cfg1.win w).arr.view.loc (c : Thread nD τ))) :
    ((dat1 V c).arrays Fn : sProp 𝕄)
      = iprop((((c : Thread nD τ).loc main_v4) ↦{fullShare.left} Fn 0) ∗ (((c : Thread nD τ).loc main_v4) ↦{fullShare.right} Fn 1)
          ∗ (((c : Thread nD τ).loc main_arg0) ↦{fullShare} Fn 2) ∗ (((c : Thread nD τ).loc main_v5) ↦{fullShare} Fn 3)) := by
  unfold Dat.arrays
  rw [bigSep_W1, (arr_whole1 0).set_eq_univ, (arr_whole1 2).set_eq_univ, (arr_whole1 3).set_eq_univ]
  rfl

/-- The three distinct buffers behind them. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_arg0) ↦{fullShare} V main_arg0) ∗ (((c : Thread nD τ).loc main_v5) ↦{fullShare} V main_v5)) := by
  unfold Pipeline.arrBufs; exact bigSep_eq_bigSepL_of_eq [main_v4, main_arg0, main_v5] (by decide) (by decide) _

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first call: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second call's entry, the arrays' part: the unscoped buffers at V are the three buffers behind its arrays and
    the rest. -/
theorem split1 (c : Dev nD) (V : (b : Ref sig .tc) → Buf (Elt F) ((c : Thread nD τ).loc b)) :
    (unscopedBufs c V : sProp 𝕄)
      = iprop(iprop((((c : Thread nD τ).loc main_v4) ↦{fullShare} V main_v4) ∗ (((c : Thread nD τ).loc main_arg0) ↦{fullShare} V main_arg0) ∗ (((c : Thread nD τ).loc main_v5) ↦{fullShare} V main_v5))
          ∗ Pipeline.unscopedRest (Ix := Unit) (Name := ℕ) (U := UR sig nD τ) (Lvl := ℕ) spec1 c V) := by
  refine (Pipeline.unscopedBufs_split₀ (Ix := Unit) (Name := ℕ) (U := UR sig nD τ) (Lvl := ℕ) cfgs 1 winFacts₀1.arr_unscoped c V).trans ?_
  rw [← arrBufs1_eq c V]; rfl

set_option backward.isDefEq.respectTransparency.types false in
/-- The second call: entered from every unscoped buffer at W3, left at W4. The projection's buffer is split into two
    halves for the two windows that read it, and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none, show pdats m 1 c = dat1 (V3 m) c from rfl, arrays1_eq]
    have hsplit : (unscopedBufs c (V3 m c) : sProp 𝕄) ⊢ _ := Entails.of_eq (split1 c (V3 m c))
    rw [Pipeline.unscopedBufs_held] at hsplit
    iintro ⟨⟨Hub, Hp, HO⟩, -, -⟩
    ihave H := hsplit $$ Hub
    icases H with ⟨⟨H4, H0, H5⟩, Hrest⟩
    ihave H4' := (pointsTo_share (PosShare.mem_left_op_right fullShare)).1 $$ H4
    icases H4' with ⟨H4l, H4r⟩
    imodintro
    isplitl [H4l H4r H0 H5]
    · isplitl [H4l]; · iexact H4l
      isplitl [H4r]; · iexact H4r
      isplitl [H0]; · iexact H0
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    rw [show pdats m 1 c = dat1 (V3 m) c from rfl, arrays1_eq]
    have h0 : (dat1 (V3 m) c).arrAt 0 (Pipeline.pin (pcfgs (F := F)) adm 1).N = V3 m c main_v4 := ((dat1 (V3 m) c).arrAt_in 0 rfl _).trans (A_eq1 (V3 m) c 0)
    have h1 : (dat1 (V3 m) c).arrAt 1 (Pipeline.pin (pcfgs (F := F)) adm 1).N = V3 m c main_v4 := ((dat1 (V3 m) c).arrAt_in 1 rfl _).trans (A_eq1 (V3 m) c 1)
    have h2 : (dat1 (V3 m) c).arrAt 2 (Pipeline.pin (pcfgs (F := F)) adm 1).N = V3 m c main_arg0 := ((dat1 (V3 m) c).arrAt_in 2 rfl _).trans (A_eq1 (V3 m) c 2)
    have hjoin : (iprop(iprop((((c : Thread nD τ).loc main_v4) ↦{fullShare} V3 m c main_v4) ∗ (((c : Thread nD τ).loc main_arg0) ↦{fullShare} V3 m c main_arg0) ∗ (((c : Thread nD τ).loc main_v5) ↦{fullShare} (dat1 (V3 m) c).arrAt 3 (Pipeline.pin (pcfgs (F := F)) adm 1).N))
          ∗ Pipeline.unscopedRest (Ix := Unit) (Name := ℕ) (U := UR sig nD τ) (Lvl := ℕ) spec1 c (V3 m c)) : sProp 𝕄)
        ⊢ (unscopedBufs c (V4 m c) : sProp 𝕄) := by
      rw [split1 c (V4 m c)]
      refine sep_mono (Entails.of_eq ?_) (Entails.of_eq ?_)
      · rw [show V4 m c main_v4 = V3 m c main_v4 from W4_of_ne m c main_v4 (by decide),
          show V4 m c main_arg0 = V3 m c main_arg0 from W4_of_ne m c main_arg0 (by decide),
          show V4 m c main_v5 = (dat1 (V3 m) c).arrAt 3 (Pipeline.pin (pcfgs (F := F)) adm 1).N from W4_main_v5 m c]
      · unfold Pipeline.unscopedRest
        exact bigSep_congr fun b hb => by
          rw [show V4 m c b = V3 m c b from W4_of_ne m c b (fun e => (Finset.mem_sdiff.mp hb).2 (e ▸ Finset.mem_image.mpr ⟨3, Finset.mem_univ _, rfl⟩))]
    rw [Pipeline.unscopedBufs_held] at hjoin
    rw [h0, h1, h2]
    iintro ⟨⟨H4l, H4r, H0, H5⟩, HO, HY, Hrest⟩
    ihave H4 := (pointsTo_share (PosShare.mem_left_op_right fullShare)).2 $$ [H4l H4r]
    · isplitl [H4l]; · iexact H4l
      iexact H4r
    imodintro
    isplitl [H4 H0 H5 Hrest HY]
    · isplitl [H4 H0 H5 Hrest]
      · iapply hjoin
        isplitl [H4 H0 H5]
        · isplitl [H4]; · iexact H4
          isplitl [H0]; · iexact H0
          iexact H5
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KFrame.lean ====
/-
  The frame of the program from its run: no host operation and no region writes an argument array, so the fold of
  the buffer contents at an argument walks back to the launch memory.
-/
import proofs.«150588_j51926154609300_2_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE FRAME, at any float instance: the program runs to the end and its two argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_all m ρ)

end Cert.Kernel.Hand

end
-- ==== Proof.KIRegion0.lean ====
/- REGION 0 of @main — the whole-array matrix product — as the pipeline library's per-region proof
   data, at a PARAMETER `V`: the TensorCore's buffer contents when the region is entered. The grid has one
   point; windows 0 and 1 (the left operand [512,1024] and the right operand [500,1024]) are fetched whole,
   window 2 (the product [512,500]) is written back whole. The body loads both operands, forms the product
   into a zero accumulator, and stores it through one whole-buffer rectangle. Stated for every float
   instance `F`. -/
import proofs.«150588_j51926154609300_2_alg».proof.Proof.Gen.KernelIdeal.Launch
import proofs.«150588_j51926154609300_2_alg».proof.Proof.Gen.KernelIdeal.Skeleton
import proofs.«150588_j51926154609300_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S512x1024 := Rect.unit (s := S512x1024) ![0, 0] S512x1024.size inb_S512x1024_S512x1024_0_0
abbrev r0_1 : Rect S500x1024 := Rect.unit (s := S500x1024) ![0, 0] S500x1024.size inb_S500x1024_S500x1024_0_0
abbrev r0_2 : Rect S512x500 := Rect.unit (s := S512x500) ![0, 0] S512x500.size inb_S512x500_S512x500_0_0

/-! ## What the body leaves in the output window's buffer -/

/-- Window 2's staging buffer after the body, from the input windows' blocks: its one store as a piece, the
    payload being the product of the two loaded operands. -/
def out0_2 (x0 : Vec F S512x1024 .f32) (x1 : Vec F S500x1024 .f32) : Vec F S512x500 .f32 :=
  View.canon [⟨r0_2, k0_pay1 (View.ld x0 r0_0) (View.ld x1 r0_1)⟩]

/-- The one store is through the whole rectangle, so it covers the buffer. -/
theorem cover0_2 (p0 : Vec F S512x500 .f32) (y : S512x500.Idx) :
    ∃ pc ∈ ([⟨r0_2, p0⟩] : List (View.Piece (Elt F) S512x500 .f32)), y ∈ pc.1.set :=
  View.cover_of_tiled [⟨r0_2, p0⟩] S512x500.size (by rfl) y

/-! ## The body's triple -/

set_option maxHeartbeats 1000000 in
/-- The kernel body on whole staging memrefs, the inputs' at read contents `x0`, `x1` and the output's at
    anything, runs to the continuation holding the inputs' as they were and the output's at `out0_2` of the
    inputs'. The body also reads the output buffer once before storing; that read is discarded. -/
theorem sound_kernel0 (c : Dev nD) (E : Set ℕ) (i : grid0.Coords) (arg1 : Memref sig .tc .vmem S512x1024 .f32) (harg1 : arg1.IsWhole) (arg2 : Memref sig .tc .vmem S500x1024 .f32) (harg2 : arg2.IsWhole) (arg3 : Memref sig .tc .vmem S512x500 .f32) (harg3 : arg3.IsWhole)
    (x0 : Vec F S512x1024 .f32) (x1 : Vec F S500x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so
    `sound_kernel0` applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIRegion1Shared.lean ====
/-
  The second pallas_call (the pairwise kernel on its 4 x 4 grid), first part: what every case of its body shares.
  A grid point t has row i = t / 4 and column j = t % 4. The body zeroes its accumulator when j = 0, adds to it the
  row sums of exp(0 - |d0| - ... - |d4|) over the column block's 128 rows at every point, and when j = 3 stores the
  row block of x and the accumulator minus one into the output block. So the output window is untouched where j < 3,
  and the accumulator is carried from one point to the next within a row.
-/
import proofs.«150588_j51926154609300_2_alg».proof.Proof.Gen.KernelIdeal.Launch
import proofs.«150588_j51926154609300_2_alg».proof.Proof.Gen.KernelIdeal.Skeleton
import proofs.«150588_j51926154609300_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, from the grid coordinates -/

/-- The first condition: the column coordinate is 0 (the accumulator is zeroed). -/
abbrev cond1_0 (i : grid1.Coords) : Prop := (Scalar.cmpi .ne (Scalar.extui (Scalar.cmpi .eq (BitVec.ofNat 32 (i 1).val) 0#32)) 0#32) = 1#1
/-- It holds exactly at the first point of each row of the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition: the column coordinate is 3 (the output block is stored). -/
abbrev cond1_1 (i : grid1.Coords) : Prop := k1_cond2 i = 1#1
/-- It holds exactly at the last point of each row of the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output block is not stored the output window is idle, -/
theorem idleAt1_3 : ∀ t : Fin cfg1.N, ¬cond1_1 (grid1.coords t) → cfg1.idle 3 (grid1.coords t) = true := by decide +kernel
/-- and not written back; -/
theorem noFlush1_3 : ∀ t : Fin cfg1.N, ¬cond1_1 (grid1.coords t) → (cfg1.win 3).flush t = false := by decide +kernel
/-- where it is stored the window is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S128x5x100 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x5x100 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1124 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x100 .f32 := Memref.whole cc1_scratch0
abbrev VS1_0 : View sig .tc .vmem S128x100 .f32 := scM1_0.view
/-- One staging buffer of the output window, through which its contents are stated. -/
abbrev VO1_3 : View sig .tc .vmem S128x1124 .f32 := (Memref.whole cc1_stg3_0 : Memref sig .tc .vmem S128x1124 .f32).view

end Cert.KernelIdeal.Hand

end
-- ==== Proof.KIRegion1RunA.lean ====
/-
  The pairwise kernel's body at a point with column 0: the accumulator is zeroed and the point's row sums added;
  the output block is not touched.
-/
import proofs.«150588_j51926154609300_2_alg».proof.Proof.KIRegion1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Column 0. The accumulator may hold anything before; the output block is handed back as found. The accumulator
    ends with the body's two stores into it, the later one first. -/
noncomputable def kernelRun1_A (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : cond1_0 i) (hc1 : ¬cond1_1 i)
    (x0 : Vec F S128x5x100 .f32) (x1 : Vec F S128x5x100 .f32) :
    { LS0 : List (View.Piece (Elt F) S128x100 .f32) //
      ∀ (x2 : Vec F S128x1024 .f32) (xi3 : Vec F S128x1124 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, fun x2 xi3 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion1RunB.lean ====
/-
  The pairwise kernel's body at a point with column 1 or 2: the point's row sums are added to the accumulator;
  the output block is not touched.
-/
import proofs.«150588_j51926154609300_2_alg».proof.Proof.KIRegion1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Columns 1 and 2. The accumulator holds what the point before left; the output block is handed back as found. -/
noncomputable def kernelRun1_B (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : ¬cond1_1 i)
    (x0 : Vec F S128x5x100 .f32) (x1 : Vec F S128x5x100 .f32) (xs0 : Vec F S128x100 .f32) :
    { LS0 : List (View.Piece (Elt F) S128x100 .f32) //
      ∀ (x2 : Vec F S128x1024 .f32) (xi3 : Vec F S128x1124 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, fun x2 xi3 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion1RunC.lean ====
/-
  The pairwise kernel's body at a point with column 3: the point's row sums are added to the accumulator, then the
  row block of x and the accumulator minus one are stored side by side into the output block.
-/
import proofs.«150588_j51926154609300_2_alg».proof.Proof.KIRegion1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Column 3. The accumulator holds what the point before left; the output block may hold anything before and ends
    with the two stored pieces. -/
noncomputable def kernelRun1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 : Vec F S128x5x100 .f32) (x1 : Vec F S128x5x100 .f32) (x2 : Vec F S128x1024 .f32) (xs0 : Vec F S128x100 .f32) :
    Σ' (L3 : List (View.Piece (Elt F) S128x1124 .f32)), { LS0 : List (View.Piece (Elt F) S128x100 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIRegion1Dat.lean ====
/-
  The pairwise kernel on its grid, second part: what the accumulator and the output block hold after every grid
  point, the invariant carried from point to point (the accumulator at the running row sums of its grid row), the
  proof data of the pipeline and its body obligation. The array the first two windows read is one array: each of
  the two holds half of it.
-/
import proofs.«150588_j51926154609300_2_alg».proof.Proof.KIRegion1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Column 0: the accumulator's pieces cover it. -/
theorem scover1_A (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : cond1_0 i) (hc1 : ¬cond1_1 i)
    (x0 x1 : Vec F S128x5x100 .f32) (y : S128x100.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S128x100.size (by sl_kernel_rfl) y
/-- What column 0 leaves in the accumulator. -/
def sout1_A (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : cond1_0 i) (hc1 : ¬cond1_1 i)
    (x0 x1 : Vec F S128x5x100 .f32) : Vec F S128x100 .f32 :=
  VS1_0.read (Elt F) (VS1_0.writes (Elt F) VS1_0.junk (kernelRun1_A c i arg2 harg2 arg3 harg3 arg4 harg4 arg5 harg5 arg6 harg6 hc0 hc1 x0 x1).1)

/-- Columns 1, 2: the accumulator's pieces cover it. -/
theorem scover1_B (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : ¬cond1_1 i)
    (x0 x1 : Vec F S128x5x100 .f32) (xs0 : Vec F S128x100 .f32) (y : S128x100.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S128x100.size (by sl_kernel_rfl) y
/-- What columns 1, 2 leave in the accumulator. -/
def sout1_B (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : ¬cond1_1 i)
    (x0 x1 : Vec F S128x5x100 .f32) (xs0 : Vec F S128x100 .f32) : Vec F S128x100 .f32 :=
  VS1_0.read (Elt F) (VS1_0.writes (Elt F) VS1_0.junk (kernelRun1_B c i arg2 harg2 arg3 harg3 arg4 harg4 arg5 harg5 arg6 harg6 hc0 hc1 x0 x1 xs0).1)

/-- Column 3: the accumulator's pieces cover it, -/
theorem scover1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) (y : S128x100.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x100.size (by sl_kernel_rfl) y
/-- what it leaves in the accumulator, -/
def sout1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) : Vec F S128x100 .f32 :=
  VS1_0.read (Elt F) (VS1_0.writes (Elt F) VS1_0.junk (kernelRun1_C c i arg2 harg2 arg3 harg3 arg4 harg4 arg5 harg5 arg6 harg6 hc0 hc1 x0 x1 x2 xs0).2.1)
/-- the output block's two pieces, 1024 and 100 columns wide, cut into blocks 4 columns wide, tile it, -/
theorem cover1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) (y : S128x1124.Idx) :
    ∃ pc ∈ (kernelRun1_C c i arg2 harg2 arg3 harg3 arg4 harg4 arg5 harg5 arg6 harg6 hc0 hc1 x0 x1 x2 xs0).1, y ∈ pc.1.set :=
  View.cover_of_tiledBy (kernelRun1_C c i arg2 harg2 arg3 harg3 arg4 harg4 arg5 harg5 arg6 harg6 hc0 hc1 x0 x1 x2 xs0).1 ![128, 4] (by sl_kernel_rfl) y
/-- and what it leaves in the output block. -/
def out1_C (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i)
    (x0 x1 : Vec F S128x5x100 .f32) (x2 : Vec F S128x1024 .f32) (xs0 : Vec F S128x100 .f32) : Vec F S128x1124 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where the output block is not stored nothing consults its contents: a placeholder. -/
def out1_idle : Vec F S128x1124 .f32 := VO1_3.read (Elt F) (VO1_3.writes (Elt F) VO1_3.junk [])

/-! ## What the output block and the accumulator hold after each point -/

/-- After the body at position n: the output block, and the accumulator — started afresh at a row's first point,
    otherwise continued from what the point before left. -/
def outsAt1 (c : Dev nD) : (n : ℕ) → n < cfg1.N → Vec F S128x1124 .f32 × Vec F S128x100 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (out1_idle, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that this pallas_call does not stage: the first call's three staging buffers at any
    contents, and the accumulator as S says. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ S)

theorem PhiA1_eq (c : Dev nD) :
    (Pipeline.ΦA spec1 c : sProp 𝕄) = iprop(restWith c (iprop(∃ d, owns (c : Thread nD τ) scM1_0 fullShare d)) ∗ (∃ r, prngReg c r)) := by
  unfold Pipeline.ΦA restWith; rw [scopedRest1_eq]; simp only [scM1_0, owns_whole]; try rfl

/-- Before position n: before the first point the accumulator holds anything; afterwards what the point before left. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body each input's buffer at its block and the output's at what
    the points leave; the invariant above; nothing owed. The two windows on one array hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KIRegion1Body.lean ====
/-
  The pairwise kernel on its grid, third part: the body obligation of the pipeline at a generic grid point, by the
  point's column (0; 1 or 2; 3), and the invariant's two ends.
-/
import proofs.«150588_j51926154609300_2_alg».proof.Proof.KIRegion1Dat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's column says which case runs; the
    invariant hands over the accumulator at what the point before left (anything at a row's first point) and takes
    it back at this point's contents; where the output block is not stored its buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 16 := lt_of_lt_of_eq t.isLt (show cfg1.N = 16 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [outsAt1_A V c t h0 h1]
    unfold sout1_A; (try dsimp only)
    by_cases hz : t.val = 0
    · rw [PhiS_castSucc V c t, PhiS_zero V c _ _ hz, PhiA1_eq]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C sout1_C; (try dsimp only)
      rw [PhiS_castSucc V c t, PhiS_pos V c _ _ hz]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold sout1_B; (try dsimp only)
      rw [PhiS_castSucc V c t, PhiS_pos V c _ _ hz]; unfold restWith
      iintro ⟨⟨⟨Ha, Hb, Hc, HS0⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands over is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the same back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]; unfold restWith
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KIRun.lean ====
/-
  The whole run of the program: its host operations and its two pallas_calls in order, each region entered from
  what the segment before it left. The buffer contents at each boundary are a fold from the launch memory; at the end
  every unscoped buffer is read back at the last boundary's contents.
-/
import proofs.«150588_j51926154609300_2_alg».proof.Proof.KIRegion0
import proofs.«150588_j51926154609300_2_alg».proof.Proof.KIRegion1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the permutation of the weight rows (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape of the projection (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second call's exit: the result array at what the write-backs leave, every other buffer as entered. -/
def W4 (c : Dev nD) : Valuation τ sig (Elt F) :=
  Function.update (W3 m c) main_v5 ((dat1 (V3 m) c).arrAt 3 cfg1.N)
abbrev V4 : (c : Dev nD) → (b : Ref sig .tc) → Buf (Elt F) ((c : Thread nD τ).loc b) := fun c b => W4 m c b
theorem W4_main_v5 (c : Dev nD) : W4 m c main_v5 = (dat1 (V3 m) c).arrAt 3 cfg1.N := by
  unfold W4; exact Function.update_self ..
theorem W4_of_ne (c : Dev nD) (r : Ref sig .tc) (h : r ≠ main_v5) : W4 m c r = W3 m c r := by
  unfold W4; exact Function.update_of_ne (StableHlo.devRef_ne_of_ne h) _ _

/-! ## The second call's arrays, one by one -/

/-- Its arrays: the projection held in two halves by the two windows that read it, x and the result held whole. -/
theorem arrays1_eq (V : (c : Dev nD) → (b : Ref sig .tc) → Buf (Elt F) ((c : Thread nD τ).loc b)) (c : Dev nD)
    (Fn : (w : Fin cfg1.W) → Buf (Elt F) ((cfg1.win w).arr.view.loc (c : Thread nD τ))) :
    ((dat1 V c).arrays Fn : sProp 𝕄)
      = iprop((((c : Thread nD τ).loc main_v4) ↦{fullShare.left} Fn 0) ∗ (((c : Thread nD τ).loc main_v4) ↦{fullShare.right} Fn 1)
          ∗ (((c : Thread nD τ).loc main_arg0) ↦{fullShare} Fn 2) ∗ (((c : Thread nD τ).loc main_v5) ↦{fullShare} Fn 3)) := by
  unfold Dat.arrays
  rw [bigSep_W1, (arr_whole1 0).set_eq_univ, (arr_whole1 2).set_eq_univ, (arr_whole1 3).set_eq_univ]
  rfl

/-- The three distinct buffers behind them. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_arg0) ↦{fullShare} V main_arg0) ∗ (((c : Thread nD τ).loc main_v5) ↦{fullShare} V main_v5)) := by
  unfold Pipeline.arrBufs; exact bigSep_eq_bigSepL_of_eq [main_v4, main_arg0, main_v5] (by decide) (by decide) _

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first call: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second call's entry, the arrays' part: the unscoped buffers at V are the three buffers behind its arrays and
    the rest. -/
theorem split1 (c : Dev nD) (V : (b : Ref sig .tc) → Buf (Elt F) ((c : Thread nD τ).loc b)) :
    (unscopedBufs c V : sProp 𝕄)
      = iprop(iprop((((c : Thread nD τ).loc main_v4) ↦{fullShare} V main_v4) ∗ (((c : Thread nD τ).loc main_arg0) ↦{fullShare} V main_arg0) ∗ (((c : Thread nD τ).loc main_v5) ↦{fullShare} V main_v5))
          ∗ Pipeline.unscopedRest (Ix := Unit) (Name := ℕ) (U := UR sig nD τ) (Lvl := ℕ) spec1 c V) := by
  refine (Pipeline.unscopedBufs_split₀ (Ix := Unit) (Name := ℕ) (U := UR sig nD τ) (Lvl := ℕ) cfgs 1 winFacts₀1.arr_unscoped c V).trans ?_
  rw [← arrBufs1_eq c V]; rfl

set_option backward.isDefEq.respectTransparency.types false in
/-- The second call: entered from every unscoped buffer at W3, left at W4. The projection's buffer is split into two
    halves for the two windows that read it, and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none, show pdats m 1 c = dat1 (V3 m) c from rfl, arrays1_eq]
    have hsplit : (unscopedBufs c (V3 m c) : sProp 𝕄) ⊢ _ := Entails.of_eq (split1 c (V3 m c))
    rw [Pipeline.unscopedBufs_held] at hsplit
    iintro ⟨⟨Hub, Hp, HO⟩, -, -⟩
    ihave H := hsplit $$ Hub
    icases H with ⟨⟨H4, H0, H5⟩, Hrest⟩
    ihave H4' := (pointsTo_share (PosShare.mem_left_op_right fullShare)).1 $$ H4
    icases H4' with ⟨H4l, H4r⟩
    imodintro
    isplitl [H4l H4r H0 H5]
    · isplitl [H4l]; · iexact H4l
      isplitl [H4r]; · iexact H4r
      isplitl [H0]; · iexact H0
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    rw [show pdats m 1 c = dat1 (V3 m) c from rfl, arrays1_eq]
    have h0 : (dat1 (V3 m) c).arrAt 0 (Pipeline.pin (pcfgs (F := F)) adm 1).N = V3 m c main_v4 := ((dat1 (V3 m) c).arrAt_in 0 rfl _).trans (A_eq1 (V3 m) c 0)
    have h1 : (dat1 (V3 m) c).arrAt 1 (Pipeline.pin (pcfgs (F := F)) adm 1).N = V3 m c main_v4 := ((dat1 (V3 m) c).arrAt_in 1 rfl _).trans (A_eq1 (V3 m) c 1)
    have h2 : (dat1 (V3 m) c).arrAt 2 (Pipeline.pin (pcfgs (F := F)) adm 1).N = V3 m c main_arg0 := ((dat1 (V3 m) c).arrAt_in 2 rfl _).trans (A_eq1 (V3 m) c 2)
    have hjoin : (iprop(iprop((((c : Thread nD τ).loc main_v4) ↦{fullShare} V3 m c main_v4) ∗ (((c : Thread nD τ).loc main_arg0) ↦{fullShare} V3 m c main_arg0) ∗ (((c : Thread nD τ).loc main_v5) ↦{fullShare} (dat1 (V3 m) c).arrAt 3 (Pipeline.pin (pcfgs (F := F)) adm 1).N))
          ∗ Pipeline.unscopedRest (Ix := Unit) (Name := ℕ) (U := UR sig nD τ) (Lvl := ℕ) spec1 c (V3 m c)) : sProp 𝕄)
        ⊢ (unscopedBufs c (V4 m c) : sProp 𝕄) := by
      rw [split1 c (V4 m c)]
      refine sep_mono (Entails.of_eq ?_) (Entails.of_eq ?_)
      · rw [show V4 m c main_v4 = V3 m c main_v4 from W4_of_ne m c main_v4 (by decide),
          show V4 m c main_arg0 = V3 m c main_arg0 from W4_of_ne m c main_arg0 (by decide),
          show V4 m c main_v5 = (dat1 (V3 m) c).arrAt 3 (Pipeline.pin (pcfgs (F := F)) adm 1).N from W4_main_v5 m c]
      · unfold Pipeline.unscopedRest
        exact bigSep_congr fun b hb => by
          rw [show V4 m c b = V3 m c b from W4_of_ne m c b (fun e => (Finset.mem_sdiff.mp hb).2 (e ▸ Finset.mem_image.mpr ⟨3, Finset.mem_univ _, rfl⟩))]
    rw [Pipeline.unscopedBufs_held] at hjoin
    rw [h0, h1, h2]
    iintro ⟨⟨H4l, H4r, H0, H5⟩, HO, HY, Hrest⟩
    ihave H4 := (pointsTo_share (PosShare.mem_left_op_right fullShare)).2 $$ [H4l H4r]
    · isplitl [H4l]; · iexact H4l
      iexact H4r
    imodintro
    isplitl [H4 H0 H5 Hrest HY]
    · isplitl [H4 H0 H5 Hrest]
      · iapply hjoin
        isplitl [H4 H0 H5]
        · isplitl [H4]; · iexact H4
          isplitl [H0]; · iexact H0
          iexact H5
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KIFrame.lean ====
/-
  The frame of the program from its run: no host operation and no region writes an argument array, so the fold of
  the buffer contents at an argument walks back to the launch memory.
-/
import proofs.«150588_j51926154609300_2_alg».proof.Proof.KIRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE FRAME, at any float instance: the program runs to the end and its two argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_all m ρ)

end Cert.KernelIdeal.Hand

end
-- ==== Proof.MatmulNT.lean ====
/- The matrix product against a transposed right operand, x · wᵀ, for x : [512,1024] and w : [500,1024], in the
   extended reals: entry (a, r) is the sum over the contracted coordinate i of x[a,i] * w[r,i]. States the result of
   the first region as ONE function of its two operand arrays, index by index; it imports no program. -/
import Idealize.ShloMosaic.PureOps.Ideal
import Idealize.ShloMosaic.Lib.ValueIdx

noncomputable section

namespace Cert.MatmulNT

open Idealize.ShloMosaic Idealize.ShloMosaic.ValueIdx

/-- x · wᵀ: entry `j = (a, r)` is `∑ i, x (a, i) * w (r, i)`. -/
def matmulNT (x : (⟨2, ![512, 1024]⟩ : Shape).Idx → EReal) (w : (⟨2, ![500, 1024]⟩ : Shape).Idx → EReal) :
    (⟨2, ![512, 500]⟩ : Shape).Idx → EReal :=
  fun j => ∑ i : Fin 1024, x (ix2 (j 0) i) * w (ix2 (j 1) i)

/-- The product at an index. -/
theorem matmulNT_apply (x : (⟨2, ![512, 1024]⟩ : Shape).Idx → EReal) (w : (⟨2, ![500, 1024]⟩ : Shape).Idx → EReal)
    (j : (⟨2, ![512, 500]⟩ : Shape).Idx) :
    matmulNT x w j = ∑ i : Fin 1024, x (ix2 (j 0) i) * w (ix2 (j 1) i) := rfl

/-- The product at an index given by its two coordinates. -/
theorem matmulNT_ix2 (x : (⟨2, ![512, 1024]⟩ : Shape).Idx → EReal) (w : (⟨2, ![500, 1024]⟩ : Shape).Idx → EReal)
    (a : Fin 512) (r : Fin 500) :
    matmulNT x w (ix2 a r) = ∑ i : Fin 1024, x (ix2 a i) * w (ix2 r i) := rfl

end Cert.MatmulNT

end
-- ==== Proof.LibDotNT.lean ====
/-
  A matrix product against a transposed right operand, re-indexed by the contracted coordinate.

  For a dot of an [n, K] operand with an [M, K] operand into [n, M] that contracts axis 1 of both (x · wᵀ: a linear
  layer's weight stored with its output columns as rows, or queries against keys) and has no batch axes, the sum over
  the contraction index of left(row i, k) * right(column i, k) is the sum over k : Fin K of L (i 0, k) * R (i 1, k).
-/
import Idealize.ShloMosaic.PureOps.Ideal.Laws
import Idealize.ShloMosaic.Lib.ValueIdx

namespace Cert.LibDotNT

open Idealize.ShloMosaic Idealize.ShloMosaic.ValueIdx

variable {n K M : Nat}

/-- The dimension numbers of x · wᵀ: contract axis 1 with axis 1, keep axis 0 of each, no batch axes. -/
structure IsNT (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum of x · wᵀ at output index `i` is the sum over the contracted coordinate. -/
theorem sum_contr {α : Type} [AddCommMonoid α] (d : DotDims ⟨2, ![n, K]⟩ ⟨2, ![M, K]⟩ ⟨2, ![n, M]⟩) (hd : IsNT d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

end Cert.LibDotNT
-- ==== Proof.KIRegion0Value.lean ====
/- The value of REGION 0 at the ideal instance (floats are extended reals): after the region the product array
   holds x · wᵀ of the two operand arrays as the region finds them, and the two operand arrays are as the region
   found them. The grid has one point and each window's one block is its whole array, so what the point writes
   back is the body's payload of the two whole arrays, and that one block covers the product array. The payload
   is a matrix product into a zero accumulator of the operands narrowed to bf16 (the identity on extended reals),
   contracting axis 1 of both: at an index it is the plain sum over the contracted coordinate. -/
import proofs.«150588_j51926154609300_2_alg».proof.Proof.KIRegion0
import proofs.«150588_j51926154609300_2_alg».proof.Proof.MatmulNT
import proofs.«150588_j51926154609300_2_alg».proof.Proof.LibDotNT
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.MatmulNT (matmulNT)

/-! ## The payload at an index -/

/-- The dimension numbers of the body's product are those of x · wᵀ. -/
theorem dot_isNT : Cert.LibDotNT.IsNT dot_S512x1024_S500x1024_S512x500_1_1_0_0_n_n := ⟨rfl, rfl, rfl, rfl, rfl, rfl⟩

/-- The body's payload of two loaded operands is their product x · wᵀ: narrowing to bf16 and the cast to the same
    shape are the identity on extended reals, and the product into the zero accumulator is the sum over the
    contraction index, re-indexed by the contracted coordinate. -/
theorem pay_eq (x0 : Vec Ideal S512x1024 .f32) (x1 : Vec Ideal S500x1024 .f32) :
    k0_pay1 (F := Ideal) x0 x1 = matmulNT x0 x1 := by
  funext j
  unfold k0_pay1
  refine (Ideal.matmul_constant_zero_apply dot_S512x1024_S500x1024_S512x500_1_1_0_0_n_n none _ _ j).trans ?_
  simp only [shapeCast_self]
  exact Cert.LibDotNT.sum_contr dot_S512x1024_S500x1024_S512x500_1_1_0_0_n_n dot_isNT (fun a b => x0 a * x1 b) j

/-! ## From the one block to the array -/

section Array

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Every window's block index is zero on every axis at every point of the grid (decided: the grid has one point). -/
theorem idx_zero : ∀ t : Fin cfg0.N, (∀ a : Fin 2, win0_0.index t a = 0) ∧ (∀ a : Fin 2, win0_1.index t a = 0)
    ∧ (∀ a : Fin 2, win0_2.index t a = 0) :=
  (by decide +kernel : ∀ t : Fin grid0.N, _)

/-- Window 0's block at any point is the whole left operand array: block index zero, block extents the array's. -/
theorem iblk0_0 (c : Dev nD) (t : Fin cfg0.N) : (iblk0 V c 0 t : Vec F S512x1024 .f32) = V c main_arg0 := by
  have hz' : (fun a => win0_0.index t a * main_arg0.ty.shape.size a) = fun _ => 0 :=
    funext fun a => by rw [(idx_zero t).1 a]; exact Nat.zero_mul _
  exact Memref.read_access_unit_zero (Elt F) main_arg0 hz' (fun a => by rw [congrFun hz' a]; simp) (V c main_arg0)

/-- Window 1's block at any point is the whole right operand array. -/
theorem iblk0_1 (c : Dev nD) (t : Fin cfg0.N) : (iblk0 V c 1 t : Vec F S500x1024 .f32) = V c main_v2 := by
  have hz' : (fun a => win0_1.index t a * main_v2.ty.shape.size a) = fun _ => 0 :=
    funext fun a => by rw [(idx_zero t).2.1 a]; exact Nat.zero_mul _
  exact Memref.read_access_unit_zero (Elt F) main_v2 hz' (fun a => by rw [congrFun hz' a]; simp) (V c main_v2)

/-- What the body leaves in the output's staging buffer at any point: the payload of the two whole operand arrays. -/
theorem after0_2_eq (c : Dev nD) (t : Fin cfg0.N) :
    ((dat0 V c).after 2 t : Vec F S512x500 .f32) = k0_pay1 (V c main_arg0) (V c main_v2) := by
  rw [after0_2]
  unfold out0_2
  rw [View.canon_unit_zero hz]
  simp only [View.ld_unit_zero (S := S512x1024) hz, View.ld_unit_zero (S := S500x1024) hz]
  rw [iblk0_0, iblk0_1]

/-- The operand arrays are never written back: after the region they are as the region found them. -/
theorem region0_kept0 (c : Dev nD) : (dat0 V c).arrAt 0 cfg0.N = V c main_arg0 :=
  ((dat0 V c).arrAt_in 0 rfl _).trans (A_eq0 V c 0)

theorem region0_kept1 (c : Dev nD) : (dat0 V c).arrAt 1 cfg0.N = V c main_v2 :=
  ((dat0 V c).arrAt_in 1 rfl _).trans (A_eq0 V c 1)

end Array

section AtIdeal

variable (V : (c : Dev nD) → (b : Ref sig .tc) → Buf (Elt Ideal) ((c : Thread nD τ).loc b))

/-- What the one point writes back is the one block of x · wᵀ of the operand arrays as the region finds them. -/
theorem flushed2_eq (c : Dev nD) (t : Fin cfg0.N) :
    (dat0 V c).flushed 2 t = ((cfg0.win 2).blk t).view.read (Elt Ideal) (matmulNT (V c main_arg0) (V c main_v2)) := by
  show (cfg0.win 2).cut (grid0.coords t) ((dat0 V c).after 2 t) = _
  rw [after0_2_eq, pay_eq]
  have hz' : (fun a => win0_2.index t a * main_v3.ty.shape.size a) = fun _ => 0 :=
    funext fun a => by rw [(idx_zero t).2.2 a]; exact Nat.zero_mul _
  exact (Memref.read_access_unit_zero (Elt Ideal) main_v3 hz' (fun a => by rw [congrFun hz' a]; simp) _).symm

/-- After region 0 the product array holds x · wᵀ of the two operand arrays as the region finds them: the one
    point's block covers the whole array. -/
theorem region0_value (c : Dev nD) :
    (dat0 (F := Ideal) V c).arrAt 2 cfg0.N = matmulNT (V c main_arg0) (V c main_v2) :=
  (dat0 V c).arrAt_eq_of_cover 2 (matmulNT (V c main_arg0) (V c main_v2)) (fun t _ => flushed2_eq V c t) fun i =>
    ⟨t0_0, flush0_2 t0_0, by
      show i ∈ ((View.whole main_v3).slice (win0_2.rect t0_0)).set
      rw [View.set_slice_whole, Rect.mem_set_unit]
      intro a
      have h0 : (i 0 : Nat) < 512 := (i 0).isLt
      have h1 : (i 1 : Nat) < 500 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 512 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 500 from by decide +kernel]; omega⟩

end AtIdeal

end Cert.KernelIdeal.Hand

end
-- ==== Proof.Spec.lean ====
/-
  The specification of the minibatch-discrimination result, as ONE function of the two argument arrays.

  Inputs: x of shape [512, 1024] and W of shape [500, 1024], entries extended reals. With rows of W grouped in
  fives (row 5 * o + k is kernel dimension k of output feature o):
    proj (b, n)     = ∑ i, x (b, i) * W (n, i)                               (the projection, one entry)
    dist (a, b, o)  = ∑ k : Fin 5, |proj (a, 5 o + k) - proj (b, 5 o + k)|   (the L1 distance of two batch rows)
    mbd (a, o)      = (∑ b, exp (-(dist (a, b, o)))) - 1
    out (r, c)      = x (r, c) for c < 1024, and mbd (r, c - 1024) for 1024 ≤ c < 1124.
  The absolute value is written max d (-d), the form the extended-real instance gives it, and the constant 1 is kept
  as the value of its single-precision word 0x3F800000.
-/
import Idealize.ShloMosaic.PureOps.Ideal
import Idealize.ShloMosaic.PureOps.Ideal.Laws
import Idealize.ShloMosaic.Lib.ValueIdx

noncomputable section

open scoped BigOperators

namespace MbdSpec

open Idealize.ShloMosaic Idealize.ShloMosaic.ValueIdx

/-- The shape of x: 512 batch rows of 1024 features. -/
abbrev SX : Shape := ⟨2, ![512, 1024]⟩
/-- The shape of W: 500 = 100 * 5 rows of 1024 features. -/
abbrev SW : Shape := ⟨2, ![500, 1024]⟩
/-- The shape of the result: each batch row followed by its 100 discrimination features. -/
abbrev SO : Shape := ⟨2, ![512, 1124]⟩

/-- Row 5 * o + k of W: kernel dimension k of output feature o. -/
def row5 (o : Fin 100) (k : Fin 5) : Fin 500 := ⟨5 * o.val + k.val, by have := o.isLt; have := k.isLt; omega⟩

@[simp] theorem row5_val (o : Fin 100) (k : Fin 5) : (row5 o k).val = 5 * o.val + k.val := rfl

/-- One entry of the projection x · Wᵀ: batch row b against row n of W. -/
def projS (x : SX.Idx → EReal) (W : SW.Idx → EReal) (b : Fin 512) (n : Fin 500) : EReal :=
  ∑ i : Fin 1024, x (ix2 b i) * W (ix2 n i)

/-- The L1 distance between batch rows a and b over the five kernel dimensions of output feature o. -/
def distS (x : SX.Idx → EReal) (W : SW.Idx → EReal) (a b : Fin 512) (o : Fin 100) : EReal :=
  ∑ k : Fin 5, max (projS x W a (row5 o k) - projS x W b (row5 o k)) (-(projS x W a (row5 o k) - projS x W b (row5 o k)))

/-- The discrimination feature o of batch row a: the sum over all batch rows b of exp (-distance), minus one
    (the row's own term exp 0). -/
def mbdS (x : SX.Idx → EReal) (W : SW.Idx → EReal) (a : Fin 512) (o : Fin 100) : EReal :=
  (∑ b : Fin 512, Ideal.exp (-(distS x W a b o))) - Ideal.ofBits .f32 0x3F800000#32

/-- The result at row r and column c: x itself on the first 1024 columns, the discrimination features after them. -/
def Gc (x : SX.Idx → EReal) (W : SW.Idx → EReal) (r : Fin 512) (c : Fin 1124) : EReal :=
  if h : c.val < 1024 then x (ix2 r ⟨c.val, h⟩) else mbdS x W r ⟨c.val - 1024, by have := c.isLt; omega⟩

/-- The result as one function of the two arrays, index by index. -/
def G (x : SX.Idx → EReal) (W : SW.Idx → EReal) : SO.Idx → EReal := fun j => Gc x W (j 0) (j 1)

/-- The result at an index given by its coordinates. -/
theorem G_ix2 (x : SX.Idx → EReal) (W : SW.Idx → EReal) (r : Fin 512) (c : Fin 1124) : G x W (ix2 r c) = Gc x W r c := rfl

/-- On the first 1024 columns the result is x. -/
theorem Gc_left (x : SX.Idx → EReal) (W : SW.Idx → EReal) (r : Fin 512) (c : Fin 1124) (h : c.val < 1024) :
    Gc x W r c = x (ix2 r ⟨c.val, h⟩) := by
  unfold Gc; rw [dif_pos h]

/-- On the last 100 columns the result is the discrimination feature. -/
theorem Gc_right (x : SX.Idx → EReal) (W : SW.Idx → EReal) (r : Fin 512) (c : Fin 1124) (h : ¬ c.val < 1024) :
    Gc x W r c = mbdS x W r ⟨c.val - 1024, by have := c.isLt; omega⟩ := by
  unfold Gc; rw [dif_neg h]

end MbdSpec

end
-- ==== Proof.HostGlue.lean ====
/-
  The host operations around the two kernels, read at an index.

  Before the first kernel the weight array W of shape [500, 1024] is re-laid: reshaped to [100, 5, 1024] (row
  5 o + k becomes entry (o, k)), its first two axes exchanged to [5, 100, 1024], and reshaped back to [500, 1024], so that
  row 100 k + o of the result is row 5 o + k of W. After the first kernel its [512, 500] result is reshaped to
  [512, 5, 100]: entry (b, k, o) is entry (b, 100 k + o). Both are layout facts, for entries of any type, stated
  first over an arbitrary array and then for the buffers the two host stretches leave, from any contents before them.
-/
import proofs.«150588_j51926154609300_2_alg».proof.Proof.Gen.KernelIdeal.Launch
import proofs.«150588_j51926154609300_2_alg».proof.Proof.Spec
import Idealize.ShloMosaic.Lib.Pipeline.Value
import Idealize.ShloMosaic.Lib.ValueIdx
import Idealize.ShloMosaic.Lib.StableHlo.Run

noncomputable section

namespace Cert.KernelGlue

open Cert.KernelIdeal Cert.KernelIdeal.Gen Idealize.ShloMosaic Idealize.ShloMosaic.TcCoe Idealize.ShloMosaic.ValueIdx
  Idealize.SL.Sem Idealize.ShloMosaic.StableHlo MbdSpec

/-- Row 100 k + o of the re-laid weights. -/
def rowP (k : Fin 5) (o : Fin 100) : Fin 500 := ⟨100 * k.val + o.val, by have := k.isLt; have := o.isLt; omega⟩

@[simp] theorem rowP_val (k : Fin 5) (o : Fin 100) : (rowP k o).val = 100 * k.val + o.val := rfl

/-- The re-laid weights as a function of the weight array: reshape, exchange of the first two axes, reshape. -/
def permuted {α : Type} (w : S500x1024.Idx → α) : S500x1024.Idx → α :=
  shapeCast S500x1024 (transpose S5x100x1024 [1, 0, 2] (shapeCast S100x5x1024 w shapeCasts_S500x1024_S100x5x1024)
    transposes_S100x5x1024_S5x100x1024_1_0_2) shapeCasts_S5x100x1024_S500x1024

/-- Row 100 k + o of the re-laid weights is row 5 o + k of the weights. -/
theorem permuted_at {α : Type} (w : S500x1024.Idx → α) (k : Fin 5) (o : Fin 100) (i : Fin 1024) :
    permuted w (ix2 (rowP k o) i) = w (ix2 (row5 o k) i) := by
  have hk := k.isLt; have ho := o.isLt; have hi := i.isLt
  unfold permuted
  refine (shapeCast_apply _ shapeCasts_S5x100x1024_S500x1024 (ix2 (rowP k o) i) (ix3 k o i) ?_).trans ?_
  · rewrite [Shape.rowMajor_val_two, Shape.rowMajor_val_three]
    show (k.val * 100 + o.val) * 1024 + i.val = (100 * k.val + o.val) * 1024 + i.val
    omega
  refine (transpose_apply [1, 0, 2] _ transposes_S100x5x1024_S5x100x1024_1_0_2 (ix3 k o i) (ix3 o k i)
    (fun b => by match b with | ⟨0, _⟩ => rfl | ⟨1, _⟩ => rfl | ⟨2, _⟩ => rfl)).trans ?_
  refine shapeCast_apply w shapeCasts_S500x1024_S100x5x1024 (ix3 o k i) (ix2 (row5 o k) i) ?_
  rewrite [Shape.rowMajor_val_two, Shape.rowMajor_val_three]
  show (5 * o.val + k.val) * 1024 + i.val = (o.val * 5 + k.val) * 1024 + i.val
  omega

/-- The same at a general row n = 100 k + o: k = n / 100 and o = n % 100. -/
theorem permuted_at_row {α : Type} (w : S500x1024.Idx → α) (n : Fin 500) (i : Fin 1024) :
    permuted w (ix2 n i)
      = w (ix2 (row5 ⟨n.val % 100, Nat.mod_lt _ (by decide)⟩ ⟨n.val / 100, by have := n.isLt; omega⟩) i) := by
  have hn := n.isLt
  have h := permuted_at w ⟨n.val / 100, by omega⟩ ⟨n.val % 100, Nat.mod_lt _ (by decide)⟩ i
  have e : rowP ⟨n.val / 100, by omega⟩ ⟨n.val % 100, Nat.mod_lt _ (by decide)⟩ = n := Fin.ext (by
    show 100 * (n.val / 100) + n.val % 100 = n.val; omega)
  rw [e] at h
  exact h

/-- The [512, 500] array reshaped to [512, 5, 100]: entry (b, k, o) is entry (b, 100 k + o). -/
theorem reshaped_at {α : Type} (v : S512x500.Idx → α) (b : Fin 512) (k : Fin 5) (o : Fin 100) :
    shapeCast S512x5x100 v shapeCasts_S512x500_S512x5x100 (ix3 b k o) = v (ix2 b (rowP k o)) := by
  have hb := b.isLt; have hk := k.isLt; have ho := o.isLt
  refine shapeCast_apply v shapeCasts_S512x500_S512x5x100 (ix3 b k o) (ix2 b (rowP k o)) ?_
  rewrite [Shape.rowMajor_val_two, Shape.rowMajor_val_three]
  show b.val * 500 + (100 * k.val + o.val) = (b.val * 5 + k.val) * 100 + o.val
  omega

/-- What the first host stretch leaves in the re-laid weights' buffer, from any contents `W0`. -/
theorem v2_term (W0 : Valuation τ sig (Elt Ideal)) :
    (StableHlo.after (hostOps0 (F := Ideal)) W0 (Proc.devRef .tc main_v2) : S500x1024.Idx → EReal)
      = permuted (W0 (Proc.devRef .tc main_arg1) : S500x1024.Idx → EReal) := by
  unfold permuted
  after_results
  rfl

/-- Row 100 k + o of the re-laid weights' buffer is row 5 o + k of the weight argument. -/
theorem v2_at (W0 : Valuation τ sig (Elt Ideal)) (k : Fin 5) (o : Fin 100) (i : Fin 1024) :
    (StableHlo.after (hostOps0 (F := Ideal)) W0 (Proc.devRef .tc main_v2) : S500x1024.Idx → EReal) (ix2 (rowP k o) i)
      = (W0 (Proc.devRef .tc main_arg1) : S500x1024.Idx → EReal) (ix2 (row5 o k) i) := by
  rw [v2_term, permuted_at]

/-- The same at a general row n. -/
theorem v2_at_row (W0 : Valuation τ sig (Elt Ideal)) (n : Fin 500) (i : Fin 1024) :
    (StableHlo.after (hostOps0 (F := Ideal)) W0 (Proc.devRef .tc main_v2) : S500x1024.Idx → EReal) (ix2 n i)
      = (W0 (Proc.devRef .tc main_arg1) : S500x1024.Idx → EReal)
          (ix2 (row5 ⟨n.val % 100, Nat.mod_lt _ (by decide)⟩ ⟨n.val / 100, by have := n.isLt; omega⟩) i) := by
  rw [v2_term, permuted_at_row]

/-- What the second host stretch leaves in the reshaped projection's buffer, from any contents `W2`. -/
theorem v4_term (W2 : Valuation τ sig (Elt Ideal)) :
    (StableHlo.after (hostOps1 (F := Ideal)) W2 (Proc.devRef .tc main_v4) : S512x5x100.Idx → EReal)
      = shapeCast S512x5x100 (W2 (Proc.devRef .tc main_v3) : S512x500.Idx → EReal) shapeCasts_S512x500_S512x5x100 := by
  after_results
  rfl

/-- Entry (b, k, o) of the reshaped projection's buffer is entry (b, 100 k + o) of the first kernel's result. -/
theorem v4_at (W2 : Valuation τ sig (Elt Ideal)) (b : Fin 512) (k : Fin 5) (o : Fin 100) :
    (StableHlo.after (hostOps1 (F := Ideal)) W2 (Proc.devRef .tc main_v4) : S512x5x100.Idx → EReal) (ix3 b k o)
      = (W2 (Proc.devRef .tc main_v3) : S512x500.Idx → EReal) (ix2 b (rowP k o)) := by
  rw [v4_term, reshaped_at]

end Cert.KernelGlue

end
-- ==== Proof.KIRegion1Pieces.lean ====
/- The pairwise kernel's body, case by case, as terms of the point's input blocks: every case adds to the accumulator
   the point's row sums (one step, `accStep`, of the two projection blocks and of what the accumulator held); the
   first column's case starts from the zeroed accumulator; the last column's case also fills the output block, with
   the row block of x in its first 1024 columns and the new accumulator minus one in its last 100. -/
import proofs.«150588_j51926154609300_2_alg».proof.Proof.KIRegion1Dat
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## One accumulation step -/

/-- Plane k of a [128,5,100] projection block, as the rectangle the body loads it through. -/
abbrev rp0 : Rect S128x5x100 := Rect.unit (s := S128x5x100) ![0, 0, 0] S128x1x100.size inb_S128x5x100_S128x1x100_0_0_0
abbrev rp1 : Rect S128x5x100 := Rect.unit (s := S128x5x100) ![0, 1, 0] S128x1x100.size inb_S128x5x100_S128x1x100_0_1_0
abbrev rp2 : Rect S128x5x100 := Rect.unit (s := S128x5x100) ![0, 2, 0] S128x1x100.size inb_S128x5x100_S128x1x100_0_2_0
abbrev rp3 : Rect S128x5x100 := Rect.unit (s := S128x5x100) ![0, 3, 0] S128x1x100.size inb_S128x5x100_S128x1x100_0_3_0
abbrev rp4 : Rect S128x5x100 := Rect.unit (s := S128x5x100) ![0, 4, 0] S128x1x100.size inb_S128x5x100_S128x1x100_0_4_0
/-- The output block's first 1024 columns, and its last 100. -/
abbrev rOutL : Rect S128x1124 := Rect.unit (s := S128x1124) ![0, 0] S128x1024.size inb_S128x1124_S128x1024_0_0
abbrev rOutR : Rect S128x1124 := Rect.unit (s := S128x1124) ![0, 1024] S128x100.size inb_S128x1124_S128x100_0_1024

/-- What one point adds: from the row block `x0` and the column block `x1` of the projections, plane by plane, and the
    accumulator's contents `s`, the new contents of the accumulator. -/
def accStep (x0 x1 : Vec F S128x5x100 .f32) (s : Vec F S128x100 .f32) : Vec F S128x100 .f32 :=
  k1_pay1 (k1_pay4 (View.ld x0 rp0) (View.ld x1 rp0) (View.ld x0 rp1) (View.ld x1 rp1)) (k1_pay5 (View.ld x0 rp2) (View.ld x1 rp2))
    (View.ld x0 rp3) (View.ld x1 rp3) (View.ld x0 rp4) (View.ld x1 rp4) s

theorem hz2 : (![0, 0] : Fin 2 → Nat) = fun _ => 0 := funext fun a => by fin_cases a <;> rfl

/-! ## What each case leaves -/

/-- Column 0 leaves in the accumulator one step from the zeroed accumulator. -/
theorem sout1_A_eq (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : cond1_0 i) (hc1 : ¬cond1_1 i) (x0 x1 : Vec F S128x5x100 .f32) :
    sout1_A c i arg2 harg2 arg3 harg3 arg4 harg4 arg5 harg5 arg6 harg6 hc0 hc1 x0 x1 = accStep x0 x1 k1_pay3 := by
  unfold sout1_A
  rw [View.read_writes_eq_canon _ _ _ (scover1_A c i arg2 harg2 arg3 harg3 arg4 harg4 arg5 harg5 arg6 harg6 hc0 hc1 x0 x1)]
  unfold kernelRun1_A
  dsimp only
  sl_unfold_words
  rw [View.canon_cons_unit_zero hz2, View.readCov_unit_zero (S := S128x100) _ hz2]
  simp only [View.readAt_eq_ld, harg2.read_unread, harg3.read_unread]
  rfl

/-- Columns 1 and 2 leave in the accumulator one step from what it held. -/
theorem sout1_B_eq (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : ¬cond1_1 i) (x0 x1 : Vec F S128x5x100 .f32) (xs0 : Vec F S128x100 .f32) :
    sout1_B c i arg2 harg2 arg3 harg3 arg4 harg4 arg5 harg5 arg6 harg6 hc0 hc1 x0 x1 xs0 = accStep x0 x1 xs0 := by
  unfold sout1_B
  rw [View.read_writes_eq_canon _ _ _ (scover1_B c i arg2 harg2 arg3 harg3 arg4 harg4 arg5 harg5 arg6 harg6 hc0 hc1 x0 x1 xs0)]
  unfold kernelRun1_B
  dsimp only
  sl_unfold_words
  rw [View.canon_unit_zero hz2]
  simp only [View.readAt_eq_ld, harg2.read_unread, harg3.read_unread, harg6.read_unread, View.ld_unit_zero (S := S128x100) hz2]
  rfl

/-- Column 3 leaves in the accumulator one step from what it held, -/
theorem sout1_C_eq (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i) (x0 x1 : Vec F S128x5x100 .f32) (x2 : Vec F S128x1024 .f32) (xs0 : Vec F S128x100 .f32) :
    sout1_C c i arg2 harg2 arg3 harg3 arg4 harg4 arg5 harg5 arg6 harg6 hc0 hc1 x0 x1 x2 xs0 = accStep x0 x1 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg6.read_unread, View.ld_unit_zero (S := S128x100) hz2]
  rfl

/-- and in the output block two pieces: the new accumulator minus one in the last 100 columns, the row block of x in
    the first 1024. -/
theorem out1_C_eq (c : Dev nD) (i : grid1.Coords) (arg2 : Memref sig .tc .vmem S128x5x100 .f32) (harg2 : arg2.IsWhole) (arg3 : Memref sig .tc .vmem S128x5x100 .f32) (harg3 : arg3.IsWhole) (arg4 : Memref sig .tc .vmem S128x1024 .f32) (harg4 : arg4.IsWhole) (arg5 : Memref sig .tc .vmem S128x1124 .f32) (harg5 : arg5.IsWhole) (arg6 : Memref sig .tc .vmem S128x100 .f32) (harg6 : arg6.IsWhole) (hc0 : ¬cond1_0 i) (hc1 : cond1_1 i) (x0 x1 : Vec F S128x5x100 .f32) (x2 : Vec F S128x1024 .f32) (xs0 : Vec F S128x100 .f32) :
    out1_C c i arg2 harg2 arg3 harg3 arg4 harg4 arg5 harg5 arg6 harg6 hc0 hc1 x0 x1 x2 xs0 = View.canon [⟨rOutR, k1_pay2 (accStep x0 x1 xs0)⟩, ⟨rOutL, x2⟩] := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.readCov_unit_zero (S := S128x100) _ hz2]
  simp only [View.readAt_eq_ld, harg2.read_unread, harg3.read_unread, harg4.read_unread, harg6.read_unread, View.ld_unit_zero (S := S128x100) hz2, View.ld_unit_zero (S := S128x1024) hz2]
  rfl

end Cert.KernelIdeal.Hand

end
-- ==== Proof.KIRegion1Blocks.lean ====
/- The pairwise kernel on its 4 x 4 grid, read point by point: which rows of the arrays each window's block holds at a
   point (the point t has grid row t / 4 and grid column t % 4; the first window's block is row block t / 4 of the
   projections, the second's row block t % 4, the third's row block t / 4 of x, the output's row block t / 4), how
   the accumulator moves from one point to the next, what the output block holds after a row's last point, and the
   output block's two pieces read at an index. -/
import proofs.«150588_j51926154609300_2_alg».proof.Proof.KIRegion1Pieces
import Idealize.ShloMosaic.Lib.ValueIdx
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (V : (c : Dev nD) → (b : Ref sig .tc) → Buf (Elt F) ((c : Thread nD τ).loc b))

/-! ## The block indices, decided over the sixteen points -/

theorem idx1_facts : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0
    ∧ win1_3.index t (0 : Fin 2) = t.val / 4 ∧ win1_3.index t (1 : Fin 2) = 0 :=
  (by decide +kernel : ∀ t : Fin grid1.N, _)

/-! ## The input blocks as rows of their arrays -/

/-- Window 0's block at point t is rows 128 (t / 4) … of the projections. -/
theorem iblk1_0_apply (c : Dev nD) (t : Fin cfg1.N) (x : S128x5x100.Idx) (k : S512x5x100.Idx)
    (hk0 : (k 0).val = 128 * (t.val / 4) + (x 0).val) (hk1 : (k 1).val = (x 1).val) (hk2 : (k 2).val = (x 2).val) :
    (iblk1 V c 0 t : Vec F S128x5x100 .f32) x = (V c main_v4 : S512x5x100.Idx → Elt F .f32) k := by
  obtain ⟨e0, e1, e2, -⟩ := idx1_facts t
  unfold iblk1
  rw [View.read_apply]
  show V c main_v4 _ = V c main_v4 _
  congr 1
  funext a
  apply Fin.ext
  match a with
  | ⟨0, _⟩ => show win1_0.index t 0 * 128 + 1 * (x 0).val = (k 0).val; rw [e0, hk0]; omega
  | ⟨1, _⟩ => show win1_0.index t 1 * 5 + 1 * (x 1).val = (k 1).val; rw [e1, hk1]; omega
  | ⟨2, _⟩ => show win1_0.index t 2 * 100 + 1 * (x 2).val = (k 2).val; rw [e2, hk2]; omega

/-- Window 1's block at point t is rows 128 (t % 4) … of the projections. -/
theorem iblk1_1_apply (c : Dev nD) (t : Fin cfg1.N) (x : S128x5x100.Idx) (k : S512x5x100.Idx)
    (hk0 : (k 0).val = 128 * (t.val % 4) + (x 0).val) (hk1 : (k 1).val = (x 1).val) (hk2 : (k 2).val = (x 2).val) :
    (iblk1 V c 1 t : Vec F S128x5x100 .f32) x = (V c main_v4 : S512x5x100.Idx → Elt F .f32) k := by
  obtain ⟨-, -, -, e0, e1, e2, -⟩ := idx1_facts t
  unfold iblk1
  rw [View.read_apply]
  show V c main_v4 _ = V c main_v4 _
  congr 1
  funext a
  apply Fin.ext
  match a with
  | ⟨0, _⟩ => show win1_1.index t 0 * 128 + 1 * (x 0).val = (k 0).val; rw [e0, hk0]; omega
  | ⟨1, _⟩ => show win1_1.index t 1 * 5 + 1 * (x 1).val = (k 1).val; rw [e1, hk1]; omega
  | ⟨2, _⟩ => show win1_1.index t 2 * 100 + 1 * (x 2).val = (k 2).val; rw [e2, hk2]; omega

/-- Window 2's block at point t is rows 128 (t / 4) … of x. -/
theorem iblk1_2_apply (c : Dev nD) (t : Fin cfg1.N) (x : S128x1024.Idx) (k : S512x1024.Idx)
    (hk0 : (k 0).val = 128 * (t.val / 4) + (x 0).val) (hk1 : (k 1).val = (x 1).val) :
    (iblk1 V c 2 t : Vec F S128x1024 .f32) x = (V c main_arg0 : S512x1024.Idx → Elt F .f32) k := by
  obtain ⟨-, -, -, -, -, -, e0, e1, -⟩ := idx1_facts t
  unfold iblk1
  rw [View.read_apply]
  show V c main_arg0 _ = V c main_arg0 _
  congr 1
  funext a
  apply Fin.ext
  match a with
  | ⟨0, _⟩ => show win1_2.index t 0 * 128 + 1 * (x 0).val = (k 0).val; rw [e0, hk0]; omega
  | ⟨1, _⟩ => show win1_2.index t 1 * 1024 + 1 * (x 1).val = (k 1).val; rw [e1, hk1]; omega

/-! ## The accumulator from point to point, and the output block after a row's last point -/

/-- At a row's first point the accumulator ends one step from zero. -/
theorem acc_first (c : Dev nD) (t : Fin cfg1.N) (h0 : t.val % 4 = 0) :
    (outsAt1 V c t.val t.isLt).2 = accStep (iblk1 V c 0 t) (iblk1 V c 1 t) k1_pay3 := by
  have h1 : ¬t.val % 4 = 3 := by omega
  rw [outsAt1_A V c t h0 h1]
  dsimp only
  exact sout1_A_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)

/-- At every other point it ends one step from what the point before left. -/
theorem acc_next (c : Dev nD) (t : Fin cfg1.N) (h0 : ¬t.val % 4 = 0) :
    (outsAt1 V c t.val t.isLt).2
      = accStep (iblk1 V c 0 t) (iblk1 V c 1 t) (outsAt1 V c (t.val - 1) (Nat.lt_of_le_of_lt (Nat.sub_le _ _) t.isLt)).2 := by
  by_cases h1 : t.val % 4 = 3
  · rw [outsAt1_C V c t h0 h1]
    dsimp only
    exact sout1_C_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- After a row's last point the output block holds the row block of x and the new accumulator minus one. -/
theorem out_last (c : Dev nD) (t : Fin cfg1.N) (h1 : t.val % 4 = 3) :
    (outsAt1 V c t.val t.isLt).1
      = View.canon [⟨rOutR, k1_pay2 (accStep (iblk1 V c 0 t) (iblk1 V c 1 t) (outsAt1 V c (t.val - 1) (Nat.lt_of_le_of_lt (Nat.sub_le _ _) t.isLt)).2)⟩,
          ⟨rOutL, iblk1 V c 2 t⟩] := by
  have h0 : ¬t.val % 4 = 0 := by omega
  rw [outsAt1_C V c t h0 h1]
  dsimp only
  exact out1_C_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-! ## The output block's two pieces at an index: the first 1024 columns read the row block of x, the last 100 the
other piece -/

omit V in
theorem not_mem_R (p : Fin 128) (col : Fin 1124) (h : col.val < 1024) : (ix2 p col : S128x1124.Idx) ∉ (rOutR).set := by
  intro hm
  have h1 := (Rect.mem_set_unit.mp hm) 1
  have e : ((![0, 1024] : Fin 2 → Nat) 1) = 1024 := rfl
  have e' : ((ix2 p col : S128x1124.Idx) 1).val = col.val := rfl
  rw [e, e'] at h1
  omega

omit V in
theorem emb_L (p : Fin 128) (col : Fin 1124) (h : col.val < 1024) : (ix2 p col : S128x1124.Idx) = rOutL.emb (ix2 p ⟨col.val, h⟩ : S128x1024.Idx) := by
  funext a; apply Fin.ext
  match a with
  | ⟨0, _⟩ => show p.val = 0 + 1 * p.val; omega
  | ⟨1, _⟩ => show col.val = 0 + 1 * col.val; omega

omit V in
theorem emb_R (p : Fin 128) (col : Fin 1124) (h : ¬col.val < 1024) : (ix2 p col : S128x1124.Idx) = rOutR.emb (ix2 p ⟨col.val - 1024, by have := col.isLt; omega⟩ : S128x100.Idx) := by
  funext a; apply Fin.ext
  match a with
  | ⟨0, _⟩ => show p.val = 0 + 1 * p.val; omega
  | ⟨1, _⟩ => show col.val = 1024 + 1 * (col.val - 1024); omega

omit V in
theorem canon_out_left (w : Vec F S128x100 .f32) (x2 : Vec F S128x1024 .f32) (p : Fin 128) (col : Fin 1124) (h : col.val < 1024) :
    (View.canon [⟨rOutR, w⟩, ⟨rOutL, x2⟩] : Vec F S128x1124 .f32) (ix2 p col) = x2 (ix2 p ⟨col.val, h⟩) :=
  (View.canon_cons_of_not_mem (Val := Elt F) (⟨rOutR, w⟩ : View.Piece (Elt F) S128x1124 .f32) [⟨rOutL, x2⟩] (not_mem_R p col h)).trans
    ((congrArg (View.canon (Val := Elt F) [(⟨rOutL, x2⟩ : View.Piece (Elt F) S128x1124 .f32)]) (emb_L p col h)).trans
      (View.canon_cons_emb (Val := Elt F) rOutL x2 [] (ix2 p ⟨col.val, h⟩ : S128x1024.Idx)))

omit V in
theorem canon_out_right (w : Vec F S128x100 .f32) (x2 : Vec F S128x1024 .f32) (p : Fin 128) (col : Fin 1124) (h : ¬col.val < 1024) :
    (View.canon [⟨rOutR, w⟩, ⟨rOutL, x2⟩] : Vec F S128x1124 .f32) (ix2 p col)
      = w (ix2 p ⟨col.val - 1024, by have := col.isLt; omega⟩) :=
  (congrArg (View.canon (Val := Elt F) [(⟨rOutR, w⟩ : View.Piece (Elt F) S128x1124 .f32), ⟨rOutL, x2⟩]) (emb_R p col h)).trans
    (View.canon_cons_emb (Val := Elt F) rOutR w [⟨rOutL, x2⟩] (ix2 p ⟨col.val - 1024, by have := col.isLt; omega⟩ : S128x100.Idx))

end Cert.KernelIdeal.Hand

end
-- ==== Proof.PairSpec.lean ====
/-
  The pairwise stage of the kernel as one function of its two inputs, in the arrangement the kernel computes it:
  for a projection array P of shape [512, 5, 100] and the input x of shape [512, 1024], the result of shape
  [512, 1124] has x in its first 1024 columns and, in column 1024 + o of row a,
      (((0 + S 0) + S 1) + S 2) + S 3 - 1,   S t = sum over r < 128 of exp(0 - |d 0| - |d 1| - |d 2| - |d 3| - |d 4|),
  with d k = P a k o - P (128 t + r) k o: the sum over all 512 rows taken in four blocks of 128.
-/
import Idealize.ShloMosaic.PureOps.Ideal
import Idealize.ShloMosaic.PureOps.Ideal.Laws
import Idealize.ShloMosaic.Lib.ValueIdx

noncomputable section

namespace PairSpec

open Idealize.ShloMosaic Idealize.ShloMosaic.ValueIdx

abbrev SX : Shape := ⟨2, ![512, 1024]⟩
abbrev SP : Shape := ⟨3, ![512, 5, 100]⟩
abbrev SO : Shape := ⟨2, ![512, 1124]⟩

/-- Row r of block t of the 512 rows. -/
def blockRow (t : Fin 4) (r : Fin 128) : Fin 512 := ⟨t.val * 128 + r.val, by have := t.isLt; have := r.isLt; omega⟩
@[simp] theorem blockRow_val (t : Fin 4) (r : Fin 128) : (blockRow t r).val = t.val * 128 + r.val := rfl

/-- |P a k o - P b k o|, the absolute value as the larger of a difference and its negative. -/
def absdP (P : SP.Idx → EReal) (a b : Fin 512) (o : Fin 100) (k : Fin 5) : EReal :=
  max (P (ix3 a k o) - P (ix3 b k o)) (-(P (ix3 a k o) - P (ix3 b k o)))

/-- The negated distance as the kernel accumulates it: 0 - |d 0| - |d 1| - |d 2| - |d 3| - |d 4|. -/
def negDistP (P : SP.Idx → EReal) (a b : Fin 512) (o : Fin 100) : EReal :=
  ((((0 - absdP P a b o 0) - absdP P a b o 1) - absdP P a b o 2) - absdP P a b o 3) - absdP P a b o 4

/-- One block's row sum. -/
def partP (P : SP.Idx → EReal) (a : Fin 512) (o : Fin 100) (t : Fin 4) : EReal :=
  ∑ r : Fin 128, Ideal.exp (negDistP P a (blockRow t r) o)

/-- The four blocks accumulated from zero in order, minus one (the word 0x3F800000 kept as a word). -/
def mbdP (P : SP.Idx → EReal) (a : Fin 512) (o : Fin 100) : EReal :=
  ((((0 + partP P a o 0) + partP P a o 1) + partP P a o 2) + partP P a o 3) - Ideal.ofBits .f32 0x3F800000#32

/-- The result, entry by entry. -/
def GoutC (X : SX.Idx → EReal) (P : SP.Idx → EReal) (r : Fin 512) (c : Fin 1124) : EReal :=
  if h : c.val < 1024 then X (ix2 r ⟨c.val, h⟩) else mbdP P r ⟨c.val - 1024, by have := c.isLt; omega⟩

def Gout (X : SX.Idx → EReal) (P : SP.Idx → EReal) : SO.Idx → EReal := fun j => GoutC X P (j 0) (j 1)

theorem Gout_ix2 (X : SX.Idx → EReal) (P : SP.Idx → EReal) (r : Fin 512) (c : Fin 1124) : Gout X P (ix2 r c) = GoutC X P r c := rfl
theorem GoutC_left (X : SX.Idx → EReal) (P : SP.Idx → EReal) (r : Fin 512) (c : Fin 1124) (h : c.val < 1024) :
    GoutC X P r c = X (ix2 r ⟨c.val, h⟩) := dif_pos h
theorem GoutC_right (X : SX.Idx → EReal) (P : SP.Idx → EReal) (r : Fin 512) (c : Fin 1124) (h : ¬c.val < 1024) :
    GoutC X P r c = mbdP P r ⟨c.val - 1024, by have := c.isLt; omega⟩ := dif_neg h

end PairSpec

end
-- ==== Proof.PairwisePayload.lean ====
/-
  The pairwise kernel's payloads, read at an index, over variable blocks.

  One grid point of the pairwise kernel holds a block `pi` of 128 query rows and a block `pj` of 128 key rows of the
  projection, both of shape [128, 5, 100] (row, kernel dimension, output feature). For each kernel dimension k it
  loads the [128, 1, 100] slab k of each block, lays the query slab along a new middle axis and the key slab along a
  new leading axis, and broadcasts both to [128, 128, 100]: entry (p, r, o) of the first is the query entry
  (p, k, o), of the second the key entry (r, k, o). It subtracts the five absolute differences from 0 one after
  another, takes the exponential, sums over the key rows r, and adds that to the accumulator. So the accumulator's
  new entry (p, o) is its old entry plus ∑ r, exp (((((0 - |d 0|) - |d 1|) - |d 2|) - |d 3|) - |d 4|) with
  d k = pi (p, k, o) - pj (r, k, o). The final payload subtracts the constant 1; the initial one is 0.
-/
import proofs.«150588_j51926154609300_2_alg».proof.Proof.Gen.KernelIdeal.Skeleton
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

open scoped BigOperators

namespace Cert.PairwisePayload

open Cert.KernelIdeal Cert.KernelIdeal.Gen Idealize.ShloMosaic Idealize.ShloMosaic.ValueIdx Idealize.SL.Sem

/-- A query slab on the [128, 128, 100] grid: its own middle unit axis broadcast over the key rows. -/
def rowB (v : Vec Ideal S128x1x100 .f32) : FVec Ideal S128x128x100 .f32 :=
  broadcastTo S128x128x100 (shapeCast S128x1x100 (shapeCast S128x100 v shapeCasts_S128x1x100_S128x100)
    shapeCasts_S128x100_S128x1x100) broadcasts_S128x1x100_S128x128x100

/-- A key slab on the [128, 128, 100] grid: a new leading unit axis broadcast over the query rows. -/
def colB (v : Vec Ideal S128x1x100 .f32) : FVec Ideal S128x128x100 .f32 :=
  broadcastTo S128x128x100 (shapeCast S1x128x100 (shapeCast S128x100 v shapeCasts_S128x1x100_S128x100)
    shapeCasts_S128x100_S1x128x100) broadcasts_S1x128x100_S128x128x100

/-- Entry (p, r, o) of a query slab on the grid is the slab's entry (p, 0, o). -/
theorem rowB_at (v : Vec Ideal S128x1x100 .f32) (p r : Fin 128) (o : Fin 100) :
    rowB v (ix3 p r o) = v (ix3 p (0 : Fin 1) o) := by
  have hp := p.isLt; have ho := o.isLt
  unfold rowB
  refine (broadcastTo_apply _ broadcasts_S128x1x100_S128x128x100 (ix3 p r o) (ix3 p (0 : Fin 1) o) (fun a => ?_)).trans ?_
  · match a with
    | ⟨0, _⟩ => show p.val = if (128 : Nat) = 1 then 0 else p.val; rw [if_neg (by decide)]
    | ⟨1, _⟩ => show 0 = if (1 : Nat) = 1 then 0 else r.val; rw [if_pos rfl]
    | ⟨2, _⟩ => show o.val = if (100 : Nat) = 1 then 0 else o.val; rw [if_neg (by decide)]
  refine (shapeCast_apply _ shapeCasts_S128x100_S128x1x100 (ix3 p (0 : Fin 1) o) (ix2 p o) ?_).trans ?_
  · rewrite [Shape.rowMajor_val_two, Shape.rowMajor_val_three]
    show p.val * 100 + o.val = (p.val * 1 + 0) * 100 + o.val
    omega
  refine shapeCast_apply v shapeCasts_S128x1x100_S128x100 (ix2 p o) (ix3 p (0 : Fin 1) o) ?_
  rewrite [Shape.rowMajor_val_two, Shape.rowMajor_val_three]
  show (p.val * 1 + 0) * 100 + o.val = p.val * 100 + o.val
  omega

/-- Entry (p, r, o) of a key slab on the grid is the slab's entry (r, 0, o). -/
theorem colB_at (v : Vec Ideal S128x1x100 .f32) (p r : Fin 128) (o : Fin 100) :
    colB v (ix3 p r o) = v (ix3 r (0 : Fin 1) o) := by
  have hr := r.isLt; have ho := o.isLt
  unfold colB
  refine (broadcastTo_apply _ broadcasts_S1x128x100_S128x128x100 (ix3 p r o) (ix3 (0 : Fin 1) r o) (fun a => ?_)).trans ?_
  · match a with
    | ⟨0, _⟩ => show 0 = if (1 : Nat) = 1 then 0 else p.val; rw [if_pos rfl]
    | ⟨1, _⟩ => show r.val = if (128 : Nat) = 1 then 0 else r.val; rw [if_neg (by decide)]
    | ⟨2, _⟩ => show o.val = if (100 : Nat) = 1 then 0 else o.val; rw [if_neg (by decide)]
  refine (shapeCast_apply _ shapeCasts_S128x100_S1x128x100 (ix3 (0 : Fin 1) r o) (ix2 r o) ?_).trans ?_
  · rewrite [Shape.rowMajor_val_two, Shape.rowMajor_val_three]
    show r.val * 100 + o.val = (0 * 128 + r.val) * 100 + o.val
    omega
  refine shapeCast_apply v shapeCasts_S128x1x100_S128x100 (ix2 r o) (ix3 r (0 : Fin 1) o) ?_
  rewrite [Shape.rowMajor_val_two, Shape.rowMajor_val_three]
  show (r.val * 1 + 0) * 100 + o.val = r.val * 100 + o.val
  omega

/-- The absolute difference of a query slab and a key slab on the grid, at (p, r, o). -/
theorem absdiff_at (vi vj : Vec Ideal S128x1x100 .f32) (p r : Fin 128) (o : Fin 100) :
    absf (subf (rowB vi) (colB vj)) (ix3 p r o)
      = max (vi (ix3 p (0 : Fin 1) o) - vj (ix3 r (0 : Fin 1) o)) (-(vi (ix3 p (0 : Fin 1) o) - vj (ix3 r (0 : Fin 1) o))) := by
  show FloatOps.absf (FloatOps.subf (rowB vi (ix3 p r o)) (colB vj (ix3 p r o))) = _
  rw [rowB_at, colB_at]
  rfl

/-- The sum over the key rows: the lane reduction over the middle axis of the grid, with its neutral accumulator word,
    at (p, o) is the sum over r of the entries (p, r, o). -/
theorem laneSum_at (src : FVec Ideal S128x128x100 .f32) (hφ : FKind.Formats .f32)
    (hacc : (0x00000000#32 : BitVec 32) = 0x00000000#32) (p : Fin 128) (o : Fin 100) :
    multiReduction .add [1] S128x100 src 0x00000000#32 reduces_S128x128x100_S128x100 hφ hacc (ix2 p o)
      = ∑ r : Fin 128, src (ix3 p r o) := by
  refine (Ideal.multiReduction_add_single src 0x00000000#32 reduces_S128x128x100_S128x100 hφ hacc (ix2 p o)).trans ?_
  refine Finset.sum_congr rfl fun r _ => congrArg src (funext fun a => Fin.ext ?_)
  match a with
  | ⟨0, _⟩ => rfl
  | ⟨1, _⟩ => rfl
  | ⟨2, _⟩ => rfl

/-- The first carried payload: the first two absolute differences subtracted from the zero splat. -/
theorem pay4_eq (v3 v5 v15 v17 : Vec Ideal S128x1x100 .f32) :
    k1_pay4 (F := Ideal) v3 v5 v15 v17
      = subf (subf (broadcast S128x128x100 (Scalar.ofBits (F := Ideal) .f32 0x00000000#32)) (absf (subf (rowB v3) (colB v5))))
          (absf (subf (rowB v15) (colB v17))) := rfl

/-- The second carried payload: the third absolute difference. -/
theorem pay5_eq (v26 v28 : Vec Ideal S128x1x100 .f32) :
    k1_pay5 (F := Ideal) v26 v28 = absf (subf (rowB v26) (colB v28)) := rfl

/-- The accumulator's payload: the accumulator plus the sum over the key rows of the exponential of the running value. -/
theorem pay1_eq (v25 v35 : FVec Ideal S128x128x100 .f32) (v37 v39 v48 v50 : Vec Ideal S128x1x100 .f32)
    (acc : Vec Ideal S128x100 .f32) :
    k1_pay1 (F := Ideal) v25 v35 v37 v39 v48 v50 acc
      = shapeCast S128x100 (addf acc (multiReduction .add [1] S128x100
          (exp (subf (subf (subf v25 v35) (absf (subf (rowB v37) (colB v39)))) (absf (subf (rowB v48) (colB v50)))))
          0x00000000#32 reduces_S128x128x100_S128x100 (.inl rfl) rfl)) shapeCasts_S128x100_S128x100 := rfl

/-- The running value at (p, r, o) over the ten loaded slabs: the five absolute differences subtracted from 0. -/
def negRunV (v3 v5 v15 v17 v26 v28 v37 v39 v48 v50 : Vec Ideal S128x1x100 .f32) (p r : Fin 128) (o : Fin 100) : EReal :=
  ((((0 - max (v3 (ix3 p (0 : Fin 1) o) - v5 (ix3 r (0 : Fin 1) o)) (-(v3 (ix3 p (0 : Fin 1) o) - v5 (ix3 r (0 : Fin 1) o))))
        - max (v15 (ix3 p (0 : Fin 1) o) - v17 (ix3 r (0 : Fin 1) o)) (-(v15 (ix3 p (0 : Fin 1) o) - v17 (ix3 r (0 : Fin 1) o))))
      - max (v26 (ix3 p (0 : Fin 1) o) - v28 (ix3 r (0 : Fin 1) o)) (-(v26 (ix3 p (0 : Fin 1) o) - v28 (ix3 r (0 : Fin 1) o))))
    - max (v37 (ix3 p (0 : Fin 1) o) - v39 (ix3 r (0 : Fin 1) o)) (-(v37 (ix3 p (0 : Fin 1) o) - v39 (ix3 r (0 : Fin 1) o))))
  - max (v48 (ix3 p (0 : Fin 1) o) - v50 (ix3 r (0 : Fin 1) o)) (-(v48 (ix3 p (0 : Fin 1) o) - v50 (ix3 r (0 : Fin 1) o)))

/-- The running value on the grid at (p, r, o). -/
theorem run_at (v3 v5 v15 v17 v26 v28 v37 v39 v48 v50 : Vec Ideal S128x1x100 .f32) (p r : Fin 128) (o : Fin 100) :
    subf (subf (subf (k1_pay4 (F := Ideal) v3 v5 v15 v17) (k1_pay5 (F := Ideal) v26 v28)) (absf (subf (rowB v37) (colB v39))))
        (absf (subf (rowB v48) (colB v50))) (ix3 p r o)
      = negRunV v3 v5 v15 v17 v26 v28 v37 v39 v48 v50 p r o := by
  rw [pay4_eq, pay5_eq]
  show ((((Ideal.ofBits .f32 0x00000000#32 - absf (subf (rowB v3) (colB v5)) (ix3 p r o))
      - absf (subf (rowB v15) (colB v17)) (ix3 p r o)) - absf (subf (rowB v26) (colB v28)) (ix3 p r o))
      - absf (subf (rowB v37) (colB v39)) (ix3 p r o)) - absf (subf (rowB v48) (colB v50)) (ix3 p r o) = _
  rw [absdiff_at, absdiff_at, absdiff_at, absdiff_at, absdiff_at, Ideal.ofBits_zero_f32]
  rfl

/-- THE ACCUMULATOR'S PAYLOAD AT (p, o), over the ten loaded slabs: the old entry plus the sum over the key rows of the
    exponential of the running value. -/
theorem pay1_at_slabs (v3 v5 v15 v17 v26 v28 v37 v39 v48 v50 : Vec Ideal S128x1x100 .f32) (acc : Vec Ideal S128x100 .f32)
    (p : Fin 128) (o : Fin 100) :
    k1_pay1 (F := Ideal) (k1_pay4 (F := Ideal) v3 v5 v15 v17) (k1_pay5 (F := Ideal) v26 v28) v37 v39 v48 v50 acc (ix2 p o)
      = acc (ix2 p o) + ∑ r : Fin 128, Ideal.exp (negRunV v3 v5 v15 v17 v26 v28 v37 v39 v48 v50 p r o) := by
  rw [pay1_eq, shapeCast_self]
  show acc (ix2 p o) + multiReduction (F := Ideal) .add [1] S128x100 _ 0x00000000#32 reduces_S128x128x100_S128x100 (.inl rfl) rfl (ix2 p o) = _
  rw [laneSum_at]
  refine congrArg (acc (ix2 p o) + ·) (Finset.sum_congr rfl fun r _ => ?_)
  show Ideal.exp (subf (subf (subf (k1_pay4 (F := Ideal) v3 v5 v15 v17) (k1_pay5 (F := Ideal) v26 v28))
      (absf (subf (rowB v37) (colB v39)))) (absf (subf (rowB v48) (colB v50))) (ix3 p r o)) = _
  rw [run_at]

/-- THE ACCUMULATOR'S PAYLOAD AT (p, o) with the running value written out: the ten slabs as plain variables. -/
theorem pay1_at_plain (a0 b0 a1 b1 a2 b2 a3 b3 a4 b4 : Vec Ideal S128x1x100 .f32) (s : Vec Ideal S128x100 .f32)
    (p : Fin 128) (o : Fin 100) :
    k1_pay1 (F := Ideal) (k1_pay4 (F := Ideal) a0 b0 a1 b1) (k1_pay5 (F := Ideal) a2 b2) a3 b3 a4 b4 s (ix2 p o)
      = s (ix2 p o) + ∑ r : Fin 128, Ideal.exp
          (((((0 - max (a0 (ix3 p (0 : Fin 1) o) - b0 (ix3 r (0 : Fin 1) o)) (-(a0 (ix3 p (0 : Fin 1) o) - b0 (ix3 r (0 : Fin 1) o))))
                - max (a1 (ix3 p (0 : Fin 1) o) - b1 (ix3 r (0 : Fin 1) o)) (-(a1 (ix3 p (0 : Fin 1) o) - b1 (ix3 r (0 : Fin 1) o))))
              - max (a2 (ix3 p (0 : Fin 1) o) - b2 (ix3 r (0 : Fin 1) o)) (-(a2 (ix3 p (0 : Fin 1) o) - b2 (ix3 r (0 : Fin 1) o))))
            - max (a3 (ix3 p (0 : Fin 1) o) - b3 (ix3 r (0 : Fin 1) o)) (-(a3 (ix3 p (0 : Fin 1) o) - b3 (ix3 r (0 : Fin 1) o))))
          - max (a4 (ix3 p (0 : Fin 1) o) - b4 (ix3 r (0 : Fin 1) o)) (-(a4 (ix3 p (0 : Fin 1) o) - b4 (ix3 r (0 : Fin 1) o)))) :=
  pay1_at_slabs a0 b0 a1 b1 a2 b2 a3 b3 a4 b4 s p o

/-- The running value at query row p, key row r and feature o of two [128, 5, 100] blocks. -/
def negRun (pi pj : S128x5x100.Idx → EReal) (p r : Fin 128) (o : Fin 100) : EReal :=
  ((((0 - max (pi (ix3 p (0 : Fin 5) o) - pj (ix3 r (0 : Fin 5) o)) (-(pi (ix3 p (0 : Fin 5) o) - pj (ix3 r (0 : Fin 5) o))))
        - max (pi (ix3 p (1 : Fin 5) o) - pj (ix3 r (1 : Fin 5) o)) (-(pi (ix3 p (1 : Fin 5) o) - pj (ix3 r (1 : Fin 5) o))))
      - max (pi (ix3 p (2 : Fin 5) o) - pj (ix3 r (2 : Fin 5) o)) (-(pi (ix3 p (2 : Fin 5) o) - pj (ix3 r (2 : Fin 5) o))))
    - max (pi (ix3 p (3 : Fin 5) o) - pj (ix3 r (3 : Fin 5) o)) (-(pi (ix3 p (3 : Fin 5) o) - pj (ix3 r (3 : Fin 5) o))))
  - max (pi (ix3 p (4 : Fin 5) o) - pj (ix3 r (4 : Fin 5) o)) (-(pi (ix3 p (4 : Fin 5) o) - pj (ix3 r (4 : Fin 5) o)))

/-- THE ACCUMULATOR'S PAYLOAD AT (p, o), the slabs given as variables with what they hold of the two blocks. -/
theorem pay1_at_of (pi pj : S128x5x100.Idx → EReal)
    (v3 v5 v15 v17 v26 v28 v37 v39 v48 v50 : Vec Ideal S128x1x100 .f32) (acc : Vec Ideal S128x100 .f32)
    (h3 : ∀ (p : Fin 128) (o : Fin 100), v3 (ix3 p (0 : Fin 1) o) = pi (ix3 p (0 : Fin 5) o))
    (h5 : ∀ (p : Fin 128) (o : Fin 100), v5 (ix3 p (0 : Fin 1) o) = pj (ix3 p (0 : Fin 5) o))
    (h15 : ∀ (p : Fin 128) (o : Fin 100), v15 (ix3 p (0 : Fin 1) o) = pi (ix3 p (1 : Fin 5) o))
    (h17 : ∀ (p : Fin 128) (o : Fin 100), v17 (ix3 p (0 : Fin 1) o) = pj (ix3 p (1 : Fin 5) o))
    (h26 : ∀ (p : Fin 128) (o : Fin 100), v26 (ix3 p (0 : Fin 1) o) = pi (ix3 p (2 : Fin 5) o))
    (h28 : ∀ (p : Fin 128) (o : Fin 100), v28 (ix3 p (0 : Fin 1) o) = pj (ix3 p (2 : Fin 5) o))
    (h37 : ∀ (p : Fin 128) (o : Fin 100), v37 (ix3 p (0 : Fin 1) o) = pi (ix3 p (3 : Fin 5) o))
    (h39 : ∀ (p : Fin 128) (o : Fin 100), v39 (ix3 p (0 : Fin 1) o) = pj (ix3 p (3 : Fin 5) o))
    (h48 : ∀ (p : Fin 128) (o : Fin 100), v48 (ix3 p (0 : Fin 1) o) = pi (ix3 p (4 : Fin 5) o))
    (h50 : ∀ (p : Fin 128) (o : Fin 100), v50 (ix3 p (0 : Fin 1) o) = pj (ix3 p (4 : Fin 5) o))
    (p : Fin 128) (o : Fin 100) :
    k1_pay1 (F := Ideal) (k1_pay4 (F := Ideal) v3 v5 v15 v17) (k1_pay5 (F := Ideal) v26 v28) v37 v39 v48 v50 acc (ix2 p o)
      = acc (ix2 p o) + ∑ r : Fin 128, Ideal.exp (negRun pi pj p r o) := by
  rw [pay1_at_slabs]
  refine congrArg (acc (ix2 p o) + ·) (Finset.sum_congr rfl fun r _ => ?_)
  unfold negRunV negRun
  rw [h3, h5, h15, h17, h26, h28, h37, h39, h48, h50]

/-- The final payload at (p, o): the accumulator's entry minus the constant 1. -/
theorem pay2_at (acc : Vec Ideal S128x100 .f32) (p : Fin 128) (o : Fin 100) :
    k1_pay2 (F := Ideal) acc (ix2 p o) = acc (ix2 p o) - Ideal.ofBits .f32 0x3F800000#32 := rfl

/-- The initial payload at (p, o): zero. -/
theorem pay3_at (p : Fin 128) (o : Fin 100) : k1_pay3 (F := Ideal) (ix2 p o) = 0 := by
  unfold k1_pay3
  rw [shapeCast_self]
  show Ideal.ofBits .f32 0x00000000#32 = 0
  exact Ideal.ofBits_zero_f32

/-! ## The slabs as loads of the two blocks

The body loads slab k of a block through the unit-stride rectangle at offsets (0, k, 0) of sizes [128, 1, 100]: what
the load reads of a block `X` is `View.ld X` of that rectangle, whose entry (p, 0, o) is `X (p, k, o)`. -/

/-- The rectangle of slab 0. -/
abbrev slab0 : Rect S128x5x100 := Rect.unit (s := S128x5x100) ![0, 0, 0] S128x1x100.size inb_S128x5x100_S128x1x100_0_0_0
/-- The rectangle of slab 1. -/
abbrev slab1 : Rect S128x5x100 := Rect.unit (s := S128x5x100) ![0, 1, 0] S128x1x100.size inb_S128x5x100_S128x1x100_0_1_0
/-- The rectangle of slab 2. -/
abbrev slab2 : Rect S128x5x100 := Rect.unit (s := S128x5x100) ![0, 2, 0] S128x1x100.size inb_S128x5x100_S128x1x100_0_2_0
/-- The rectangle of slab 3. -/
abbrev slab3 : Rect S128x5x100 := Rect.unit (s := S128x5x100) ![0, 3, 0] S128x1x100.size inb_S128x5x100_S128x1x100_0_3_0
/-- The rectangle of slab 4. -/
abbrev slab4 : Rect S128x5x100 := Rect.unit (s := S128x5x100) ![0, 4, 0] S128x1x100.size inb_S128x5x100_S128x1x100_0_4_0

/-- Entry (p, 0, o) of the loaded slab 0 is entry (p, 0, o) of the block. -/
theorem ld_slab0 (X : Vec Ideal S128x5x100 .f32) (p : Fin 128) (o : Fin 100) :
    View.ld (Val := Elt Ideal) X slab0 (ix3 p (0 : Fin 1) o) = X (ix3 p (0 : Fin 5) o) :=
  congrArg X (funext fun a => Fin.ext (by
    match a with
    | ⟨0, _⟩ => show 0 + 1 * p.val = p.val; omega
    | ⟨1, _⟩ => rfl
    | ⟨2, _⟩ => show 0 + 1 * o.val = o.val; omega))
/-- Entry (p, 0, o) of the loaded slab 1 is entry (p, 1, o) of the block. -/
theorem ld_slab1 (X : Vec Ideal S128x5x100 .f32) (p : Fin 128) (o : Fin 100) :
    View.ld (Val := Elt Ideal) X slab1 (ix3 p (0 : Fin 1) o) = X (ix3 p (1 : Fin 5) o) :=
  congrArg X (funext fun a => Fin.ext (by
    match a with
    | ⟨0, _⟩ => show 0 + 1 * p.val = p.val; omega
    | ⟨1, _⟩ => rfl
    | ⟨2, _⟩ => show 0 + 1 * o.val = o.val; omega))
/-- Entry (p, 0, o) of the loaded slab 2 is entry (p, 2, o) of the block. -/
theorem ld_slab2 (X : Vec Ideal S128x5x100 .f32) (p : Fin 128) (o : Fin 100) :
    View.ld (Val := Elt Ideal) X slab2 (ix3 p (0 : Fin 1) o) = X (ix3 p (2 : Fin 5) o) :=
  congrArg X (funext fun a => Fin.ext (by
    match a with
    | ⟨0, _⟩ => show 0 + 1 * p.val = p.val; omega
    | ⟨1, _⟩ => rfl
    | ⟨2, _⟩ => show 0 + 1 * o.val = o.val; omega))
/-- Entry (p, 0, o) of the loaded slab 3 is entry (p, 3, o) of the block. -/
theorem ld_slab3 (X : Vec Ideal S128x5x100 .f32) (p : Fin 128) (o : Fin 100) :
    View.ld (Val := Elt Ideal) X slab3 (ix3 p (0 : Fin 1) o) = X (ix3 p (3 : Fin 5) o) :=
  congrArg X (funext fun a => Fin.ext (by
    match a with
    | ⟨0, _⟩ => show 0 + 1 * p.val = p.val; omega
    | ⟨1, _⟩ => rfl
    | ⟨2, _⟩ => show 0 + 1 * o.val = o.val; omega))
/-- Entry (p, 0, o) of the loaded slab 4 is entry (p, 4, o) of the block. -/
theorem ld_slab4 (X : Vec Ideal S128x5x100 .f32) (p : Fin 128) (o : Fin 100) :
    View.ld (Val := Elt Ideal) X slab4 (ix3 p (0 : Fin 1) o) = X (ix3 p (4 : Fin 5) o) :=
  congrArg X (funext fun a => Fin.ext (by
    match a with
    | ⟨0, _⟩ => show 0 + 1 * p.val = p.val; omega
    | ⟨1, _⟩ => rfl
    | ⟨2, _⟩ => show 0 + 1 * o.val = o.val; omega))

/-- THE ACCUMULATOR'S PAYLOAD AT (p, o) over the two blocks as the body loads them. -/
theorem pay1_at (pi pj : Vec Ideal S128x5x100 .f32) (acc : Vec Ideal S128x100 .f32) (p : Fin 128) (o : Fin 100) :
    k1_pay1 (F := Ideal)
        (k1_pay4 (F := Ideal) (View.ld (Val := Elt Ideal) pi slab0) (View.ld (Val := Elt Ideal) pj slab0)
          (View.ld (Val := Elt Ideal) pi slab1) (View.ld (Val := Elt Ideal) pj slab1))
        (k1_pay5 (F := Ideal) (View.ld (Val := Elt Ideal) pi slab2) (View.ld (Val := Elt Ideal) pj slab2))
        (View.ld (Val := Elt Ideal) pi slab3) (View.ld (Val := Elt Ideal) pj slab3)
        (View.ld (Val := Elt Ideal) pi slab4) (View.ld (Val := Elt Ideal) pj slab4) acc (ix2 p o)
      = acc (ix2 p o) + ∑ r : Fin 128, Ideal.exp (negRun pi pj p r o) :=
  pay1_at_of pi pj _ _ _ _ _ _ _ _ _ _ acc (ld_slab0 pi) (ld_slab0 pj) (ld_slab1 pi) (ld_slab1 pj) (ld_slab2 pi) (ld_slab2 pj)
    (ld_slab3 pi) (ld_slab3 pj) (ld_slab4 pi) (ld_slab4 pj) p o

end Cert.PairwisePayload

end
-- ==== Proof.KIRegion1Value.lean ====
/- The value of the second pallas_call (the pairwise kernel) at the ideal instance, where floats are extended reals:
   after the region the output array holds, in row a, x's row a in its first 1024 columns and, in column 1024 + o,
   the four blocks' row sums of exp(0 - |d0| - … - |d4|) accumulated from zero in the grid's order, minus one; the
   two input arrays are as the region found them. The accumulator after the point of grid row q and grid column j
   holds, at (p, o), the partial sum over the column blocks 0 … j for the row 128 q + p: by induction along the grid's
   points, one accumulation step at a time. The output is written back at each grid row's last point, one row block
   per grid row, and the four row blocks cover the array. -/
import proofs.«150588_j51926154609300_2_alg».proof.Proof.KIRegion1Blocks
import proofs.«150588_j51926154609300_2_alg».proof.Proof.KIRegion1Body
import proofs.«150588_j51926154609300_2_alg».proof.Proof.PairSpec
import proofs.«150588_j51926154609300_2_alg».proof.Proof.PairwisePayload
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The partial sums the accumulator runs through -/

/-- The row sum over column block j, for j below 4. -/
def partN (P : PairSpec.SP.Idx → EReal) (a : Fin 512) (o : Fin 100) (j : ℕ) : EReal :=
  if h : j < 4 then PairSpec.partP P a o ⟨j, h⟩ else 0

/-- The column blocks 0 … j accumulated from zero in order. -/
def accSpec (P : PairSpec.SP.Idx → EReal) (a : Fin 512) (o : Fin 100) : ℕ → EReal
  | 0 => 0 + partN P a o 0
  | j + 1 => accSpec P a o j + partN P a o (j + 1)

/-- All four, minus one, is the specification's entry. -/
theorem accSpec_three (P : PairSpec.SP.Idx → EReal) (a : Fin 512) (o : Fin 100) :
    accSpec P a o 3 - Ideal.ofBits .f32 0x3F800000#32 = PairSpec.mbdP P a o := rfl

/-- The grid row of position n. -/
def rowN (n : ℕ) (hn : n < cfg1.N) : Fin 4 := ⟨n / 4, by have h16 : cfg1.N = 16 := N_1; omega⟩

variable (V : (c : Dev nD) → (b : Ref sig .tc) → Buf (Elt Ideal) ((c : Thread nD τ).loc b))

/-! ## The blocks at an index, in the specification's row numbering -/

theorem blk0_at (c : Dev nD) (n : ℕ) (hn : n < cfg1.N) (p : Fin 128) (k : Fin 5) (o : Fin 100) :
    (iblk1 V c 0 ⟨n, hn⟩ : Vec Ideal S128x5x100 .f32) (ix3 p k o) = V c main_v4 (ix3 (PairSpec.blockRow (rowN n hn) p) k o) :=
  iblk1_0_apply V c ⟨n, hn⟩ (ix3 p k o) (ix3 (PairSpec.blockRow (rowN n hn) p) k o)
    (by show (n / 4) * 128 + p.val = 128 * (n / 4) + p.val; omega) rfl rfl

theorem blk1_at (c : Dev nD) (n : ℕ) (hn : n < cfg1.N) (r : Fin 128) (k : Fin 5) (o : Fin 100) :
    (iblk1 V c 1 ⟨n, hn⟩ : Vec Ideal S128x5x100 .f32) (ix3 r k o)
      = V c main_v4 (ix3 (PairSpec.blockRow ⟨n % 4, Nat.mod_lt n (by decide)⟩ r) k o) :=
  iblk1_1_apply V c ⟨n, hn⟩ (ix3 r k o) (ix3 (PairSpec.blockRow ⟨n % 4, Nat.mod_lt n (by decide)⟩ r) k o)
    (by show (n % 4) * 128 + r.val = 128 * (n % 4) + r.val; omega) rfl rfl

theorem blk2_at (c : Dev nD) (n : ℕ) (hn : n < cfg1.N) (p : Fin 128) (col : Fin 1024) :
    (iblk1 V c 2 ⟨n, hn⟩ : Vec Ideal S128x1024 .f32) (ix2 p col) = V c main_arg0 (ix2 (PairSpec.blockRow (rowN n hn) p) col) :=
  iblk1_2_apply V c ⟨n, hn⟩ (ix2 p col) (ix2 (PairSpec.blockRow (rowN n hn) p) col)
    (by show (n / 4) * 128 + p.val = 128 * (n / 4) + p.val; omega) rfl

/-! ## One accumulation step at an index -/

/-- One step at position n adds the row sum over column block n % 4, for the row of grid row n / 4. -/
theorem step_val (c : Dev nD) (n : ℕ) (hn : n < cfg1.N) (s : Vec Ideal S128x100 .f32) (p : Fin 128) (o : Fin 100) :
    accStep (iblk1 V c 0 ⟨n, hn⟩) (iblk1 V c 1 ⟨n, hn⟩) s (ix2 p o)
      = s (ix2 p o) + partN (V c main_v4) (PairSpec.blockRow (rowN n hn) p) o (n % 4) := by
  refine (Cert.PairwisePayload.pay1_at (iblk1 V c 0 ⟨n, hn⟩) (iblk1 V c 1 ⟨n, hn⟩) s p o).trans ?_
  refine congrArg (s (ix2 p o) + ·) ?_
  unfold partN
  rw [dif_pos (Nat.mod_lt n (by decide))]
  unfold PairSpec.partP
  refine Finset.sum_congr rfl fun r _ => congrArg Ideal.exp ?_
  unfold Cert.PairwisePayload.negRun PairSpec.negDistP PairSpec.absdP
  simp only [blk0_at V c n hn, blk1_at V c n hn]

/-! ## The accumulator after every point -/

/-- After position n the accumulator holds, at (p, o), the column blocks 0 … n % 4 accumulated from zero, for the
    row p of grid row n / 4. -/
theorem acc_val (c : Dev nD) (p : Fin 128) (o : Fin 100) : ∀ (n : ℕ) (hn : n < cfg1.N),
    (outsAt1 V c n hn).2 (ix2 p o) = accSpec (V c main_v4) (PairSpec.blockRow (rowN n hn) p) o (n % 4) := by
  intro n
  induction n with
  | zero =>
    intro hn
    refine (congrFun (acc_first V c ⟨0, hn⟩ rfl) (ix2 p o)).trans ?_
    rw [step_val V c 0 hn, Cert.PairwisePayload.pay3_at]
    rfl
  | succ n ih =>
    intro hn
    by_cases h0 : (n + 1) % 4 = 0
    · refine (congrFun (acc_first V c ⟨n + 1, hn⟩ h0) (ix2 p o)).trans ?_
      rw [step_val V c (n + 1) hn, Cert.PairwisePayload.pay3_at, h0]
      rfl
    · have hn' : n < cfg1.N := Nat.lt_of_succ_lt hn
      refine (congrFun (acc_next V c ⟨n + 1, hn⟩ h0) (ix2 p o)).trans ?_
      refine (step_val V c (n + 1) hn (outsAt1 V c n hn').2 p o).trans ?_
      rw [ih hn']
      have hrow : rowN (n + 1) hn = rowN n hn' := Fin.ext (by show (n + 1) / 4 = n / 4; omega)
      have hcol : (n + 1) % 4 = n % 4 + 1 := by omega
      rw [hrow, hcol]
      rfl

/-! ## The output block after a grid row's last point -/

/-- After a grid row's last point the output block holds, in row p, the specification's row 128 q + p. -/
theorem out_val (c : Dev nD) (n : ℕ) (hn : n < cfg1.N) (h1 : n % 4 = 3) (p : Fin 128) (col : Fin 1124) :
    ((outsAt1 V c n hn).1 : Vec Ideal S128x1124 .f32) (ix2 p col)
      = PairSpec.GoutC (V c main_arg0) (V c main_v4) (PairSpec.blockRow (rowN n hn) p) col := by
  have h0 : ¬n % 4 = 0 := by omega
  have hn1 : n - 1 < cfg1.N := Nat.lt_of_le_of_lt (Nat.sub_le _ _) hn
  have e : ((outsAt1 V c n hn).1 : Vec Ideal S128x1124 .f32)
      = View.canon [⟨rOutR, k1_pay2 (accStep (iblk1 V c 0 ⟨n, hn⟩) (iblk1 V c 1 ⟨n, hn⟩) (outsAt1 V c (n - 1) hn1).2)⟩, ⟨rOutL, iblk1 V c 2 ⟨n, hn⟩⟩] :=
    out_last V c ⟨n, hn⟩ h1
  have e2 : (outsAt1 V c n hn).2 = accStep (iblk1 V c 0 ⟨n, hn⟩) (iblk1 V c 1 ⟨n, hn⟩) (outsAt1 V c (n - 1) hn1).2 :=
    acc_next V c ⟨n, hn⟩ h0
  refine (congrFun e (ix2 p col)).trans ?_
  by_cases hc : col.val < 1024
  · exact (canon_out_left (F := Ideal) _ (iblk1 V c 2 ⟨n, hn⟩) p col hc).trans
      ((blk2_at V c n hn p ⟨col.val, hc⟩).trans (PairSpec.GoutC_left _ _ _ _ hc).symm)
  · refine (canon_out_right (F := Ideal) _ (iblk1 V c 2 ⟨n, hn⟩) p col hc).trans ?_
    rw [PairSpec.GoutC_right _ _ _ _ hc, ← e2]
    refine (Cert.PairwisePayload.pay2_at (outsAt1 V c n hn).2 p _).trans ?_
    rw [acc_val V c p _ n hn, h1]
    exact accSpec_three _ _ _

/-! ## From the row blocks to the array -/

/-- An index of the output array is in point t's block iff each coordinate is in the block's range on its axis. -/
theorem mem_blk3 (t : Fin cfg1.N) (i : S512x1124.Idx) :
    i ∈ ((cfg1.win 3).blk t).view.set ↔ ∀ a : Fin 2, win1_3.index t a * S128x1124.size a ≤ (i a).val ∧ (i a).val < win1_3.index t a * S128x1124.size a + S128x1124.size a := by
  show i ∈ ((View.whole main_v5).slice (win1_3.rect t)).set ↔ _
  rw [View.set_slice_whole, Rect.mem_set_unit]
  exact Iff.rfl

/-- What a grid row's last point writes back is its row block of the specification. -/
theorem flushed3_eq (c : Dev nD) (t : Fin cfg1.N) (hf : (cfg1.win 3).flush t = true) :
    (dat1 V c).flushed 3 t = ((cfg1.win 3).blk t).view.read (Elt Ideal) (PairSpec.Gout (V c main_arg0) (V c main_v4)) := by
  have h1 : t.val % 4 = 3 := (flush1_3 t).mp hf
  obtain ⟨-, -, -, -, -, -, -, -, e0, e1⟩ := idx1_facts t
  show (cfg1.win 3).cut (grid1.coords t) ((dat1 V c).after 3 t) = _
  rw [after1_3]
  have key : ((outsAt1 V c t.val t.isLt).1 : Vec Ideal S128x1124 .f32)
      = fun y => PairSpec.Gout (V c main_arg0) (V c main_v4) (ix2 (PairSpec.blockRow (rowN t.val t.isLt) (y 0)) (y 1)) := by
    funext y
    rw [eq_ix2 y]
    exact out_val V c t.val t.isLt h1 (y 0) (y 1)
  rw [key]
  funext y
  show PairSpec.Gout (V c main_arg0) (V c main_v4) _ = PairSpec.Gout (V c main_arg0) (V c main_v4) (((cfg1.win 3).blk t).view.emb y)
  congr 1
  funext a
  apply Fin.ext
  match a with
  | ⟨0, _⟩ => show (t.val / 4) * 128 + (y 0).val = win1_3.index t 0 * 128 + 1 * (y 0).val; rw [e0]; omega
  | ⟨1, _⟩ => show (y 1).val = win1_3.index t 1 * 1124 + 1 * (y 1).val; rw [e1]; omega

/-- After the region the output array holds the specification: every index is in the block of its grid row's last
    point, which writes it back. -/
theorem region1_value (c : Dev nD) :
    (dat1 (F := Ideal) V c).arrAt 3 cfg1.N = PairSpec.Gout (V c main_arg0) (V c main_v4) :=
  (dat1 V c).arrAt_eq_of_cover 3 (PairSpec.Gout (V c main_arg0) (V c main_v4)) (fun t hf => flushed3_eq V c t hf) fun i => by
    have hi0 : (i 0 : Nat) < 512 := (i 0).isLt
    have hi1 : (i 1 : Nat) < 1124 := (i 1).isLt
    have h16 : cfg1.N = 16 := N_1
    let t : Fin cfg1.N := ⟨4 * ((i 0 : Nat) / 128) + 3, by omega⟩
    have ht : t.val = 4 * ((i 0 : Nat) / 128) + 3 := rfl
    obtain ⟨-, -, -, -, -, -, -, -, e0, e1⟩ := idx1_facts t
    refine ⟨t, (flush1_3 t).mpr (by omega), ?_⟩
    rw [mem_blk3]
    intro a
    match a with
    | ⟨0, _⟩ => show win1_3.index t 0 * 128 ≤ (i 0 : Nat) ∧ (i 0 : Nat) < win1_3.index t 0 * 128 + 128; rw [e0]; omega
    | ⟨1, _⟩ => show win1_3.index t 1 * 1124 ≤ (i 1 : Nat) ∧ (i 1 : Nat) < win1_3.index t 1 * 1124 + 1124; rw [e1]; omega

/-! ## The inputs are kept -/

/-- The input arrays are never written back: after the region they are as the region found them. -/
theorem region1_kept0 (c : Dev nD) : (dat1 V c).arrAt 0 cfg1.N = V c main_v4 :=
  ((dat1 V c).arrAt_in 0 rfl _).trans (A_eq1 V c 0)

theorem region1_kept1 (c : Dev nD) : (dat1 V c).arrAt 1 cfg1.N = V c main_v4 :=
  ((dat1 V c).arrAt_in 1 rfl _).trans (A_eq1 V c 1)

theorem region1_kept2 (c : Dev nD) : (dat1 V c).arrAt 2 cfg1.N = V c main_arg0 :=
  ((dat1 V c).arrAt_in 2 rfl _).trans (A_eq1 V c 2)

end Cert.KernelIdeal.Hand

end
-- ==== Proof.LibNegSum.lean ====
/-
  Subtracting non-negative extended reals one after another is negating their sum.

  On the extended reals `-(x + y) = -x - y` can fail when the two terms are opposite infinities. When both are
  non-negative neither is `-∞`, and the law holds with no finiteness assumption: `+∞` is allowed. So a running
  value that starts at `0` (or at the negation of the first term) and has non-negative terms subtracted from it one
  after another is the negation of the terms' sum. The absolute value of an extended real, written `max d (-d)`,
  is such a non-negative term.
-/
import Mathlib.Data.EReal.Operations
import Mathlib.Algebra.BigOperators.Fin

namespace Cert.NegSum

open scoped BigOperators

/-- The absolute value `max d (-d)` of an extended real is non-negative. -/
theorem abs_nonneg (d : EReal) : 0 ≤ max d (-d) := by
  rcases le_total 0 d with h | h
  · exact le_max_of_le_left h
  · exact le_max_of_le_right (EReal.neg_nonneg.mpr h)

/-- A non-negative extended real is not `-∞`. -/
theorem ne_bot_of_nonneg {s : EReal} (hs : 0 ≤ s) : s ≠ ⊥ :=
  ne_bot_of_le_ne_bot EReal.zero_ne_bot hs

/-- For non-negative extended reals the negation of a sum is the negated first term minus the second. -/
theorem neg_add_of_nonneg {s y : EReal} (hs : 0 ≤ s) (hy : 0 ≤ y) : -(s + y) = -s - y :=
  EReal.neg_add (Or.inl (ne_bot_of_nonneg hs)) (Or.inr (ne_bot_of_nonneg hy))

/-- One more non-negative term subtracted from a negated non-negative sum. -/
theorem neg_sub_of_nonneg {s y : EReal} (hs : 0 ≤ s) (hy : 0 ≤ y) : -s - y = -(s + y) :=
  (neg_add_of_nonneg hs hy).symm

/-- Five non-negative terms subtracted one after another from `0`: the negation of their sum. -/
theorem sub5_eq_neg_sum (a : Fin 5 → EReal) (ha : ∀ k, 0 ≤ a k) :
    ((((0 - a 0) - a 1) - a 2) - a 3) - a 4 = -(∑ k : Fin 5, a k) := by
  rw [Fin.sum_univ_five, zero_sub,
    neg_add_of_nonneg (add_nonneg (add_nonneg (add_nonneg (ha 0) (ha 1)) (ha 2)) (ha 3)) (ha 4),
    neg_add_of_nonneg (add_nonneg (add_nonneg (ha 0) (ha 1)) (ha 2)) (ha 3),
    neg_add_of_nonneg (add_nonneg (ha 0) (ha 1)) (ha 2),
    neg_add_of_nonneg (ha 0) (ha 1)]

/-- The same when the running value starts at the negation of the first term. -/
theorem neg_sub4_eq_neg_sum (a : Fin 5 → EReal) (ha : ∀ k, 0 ≤ a k) :
    (((-(a 0) - a 1) - a 2) - a 3) - a 4 = -(∑ k : Fin 5, a k) := by
  rw [← sub5_eq_neg_sum a ha, zero_sub]

/-- Five absolute values subtracted one after another from `0`: the negation of the sum of the absolute values. -/
theorem sub5_abs_eq_neg_sum (d : Fin 5 → EReal) :
    ((((0 - max (d 0) (-(d 0))) - max (d 1) (-(d 1))) - max (d 2) (-(d 2))) - max (d 3) (-(d 3))) - max (d 4) (-(d 4))
      = -(∑ k : Fin 5, max (d k) (-(d k))) :=
  sub5_eq_neg_sum (fun k => max (d k) (-(d k))) (fun k => abs_nonneg (d k))

/-- The same when the running value starts at the negated first absolute value. -/
theorem neg_sub4_abs_eq_neg_sum (d : Fin 5 → EReal) :
    (((-(max (d 0) (-(d 0))) - max (d 1) (-(d 1))) - max (d 2) (-(d 2))) - max (d 3) (-(d 3))) - max (d 4) (-(d 4))
      = -(∑ k : Fin 5, max (d k) (-(d k))) :=
  neg_sub4_eq_neg_sum (fun k => max (d k) (-(d k))) (fun k => abs_nonneg (d k))

end Cert.NegSum
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.LibBlockAcc.lean ====
/-
  An accumulator that starts at zero and adds one block's partial sum per step holds the whole sum at the end.

  Let the `K = b · n` summands be cut into `b` blocks of `n` consecutive ones, and let `P t` be the sum of block
  `t`. Then the sum of the `P t` over the blocks is the sum of all `K` summands — whichever way the positions of a
  block are named, as long as position `j` of block `t` is the summand `t · n + j`. For four blocks the accumulator's
  literal value `(((0 + P 0) + P 1) + P 2) + P 3` is that sum. Holds in any additive commutative monoid, so for
  extended reals with no finiteness.
-/
import Mathlib.Algebra.BigOperators.Fin
import proofs.«150588_j51926154609300_2_alg».proof.Proof.LibBlockSumN

namespace Cert.BlockAcc

open scoped BigOperators

/-- The block sums add up to the whole sum: `idx t j` names position `j` of block `t`, the summand `t · n + j`. -/
theorem sum_block_sums {α : Type} [AddCommMonoid α] {K : Nat} (b n : Nat) (hK : K = b * n) (f : Fin K → α)
    (idx : Fin b → Fin n → Fin K) (hidx : ∀ t j, (idx t j).val = t.val * n + j.val)
    (P : Fin b → α) (hP : ∀ t, P t = ∑ j : Fin n, f (idx t j)) :
    ∑ t : Fin b, P t = ∑ k : Fin K, f k := by
  rw [Cert.BlockSumN.sum_blocks_of_eq b n hK f]
  refine Finset.sum_congr rfl fun t _ => ?_
  rw [hP t]
  refine Finset.sum_congr rfl fun j _ => ?_
  exact congrArg f (Fin.ext (hidx t j))

/-- The same with the blocks counted by natural numbers below `b` (a sum over `Finset.range b`). -/
theorem sum_range_block_sums {α : Type} [AddCommMonoid α] {K : Nat} (b n : Nat) (hK : K = b * n) (f : Fin K → α)
    (idx : Fin b → Fin n → Fin K) (hidx : ∀ t j, (idx t j).val = t.val * n + j.val)
    (P : Nat → α) (hP : ∀ t : Fin b, P t.val = ∑ j : Fin n, f (idx t j)) :
    ∑ t ∈ Finset.range b, P t = ∑ k : Fin K, f k := by
  rw [Finset.sum_range]
  exact sum_block_sums b n hK f idx hidx (fun t => P t.val) hP

/-- Four blocks: the accumulator's literal value after the four steps is the whole sum. -/
theorem acc4_eq_sum {α : Type} [AddCommMonoid α] {K : Nat} (n : Nat) (hK : K = 4 * n) (f : Fin K → α)
    (idx : Fin 4 → Fin n → Fin K) (hidx : ∀ t j, (idx t j).val = t.val * n + j.val)
    (P : Fin 4 → α) (hP : ∀ t, P t = ∑ j : Fin n, f (idx t j)) :
    (((0 + P 0) + P 1) + P 2) + P 3 = ∑ k : Fin K, f k := by
  rw [← sum_block_sums 4 n hK f idx hidx P hP, Fin.sum_univ_four, zero_add]

end Cert.BlockAcc
-- ==== Proof.SpecBlocked.lean ====
/-
  The specification's discrimination feature in the blocked arrangement: the same value, summed another way.

  For a batch row a and an output feature o, the distance to row b can be taken as a running value that starts at
  0 and has the five absolute differences subtracted from it one after another; that running value is the negated
  distance, because the absolute differences are non-negative extended reals (no finiteness is needed). The 512 batch
  rows b can be taken in four blocks of 128 consecutive rows, block t holding the rows 128 t + r; an accumulator
  that starts at 0 and adds the blocks' partial sums of exp (running value) in order holds, after the four blocks,
  the whole sum over b. Subtracting the constant 1 gives the specification's feature.
-/
import proofs.«150588_j51926154609300_2_alg».proof.Proof.Spec
import proofs.«150588_j51926154609300_2_alg».proof.Proof.LibNegSum
import proofs.«150588_j51926154609300_2_alg».proof.Proof.LibBlockAcc

noncomputable section

open scoped BigOperators

namespace MbdSpec

open Idealize.ShloMosaic Idealize.ShloMosaic.ValueIdx

/-- The absolute difference of rows a and b of the projection at kernel dimension k of output feature o. -/
def absd (x : SX.Idx → EReal) (W : SW.Idx → EReal) (a b : Fin 512) (o : Fin 100) (k : Fin 5) : EReal :=
  max (projS x W a (row5 o k) - projS x W b (row5 o k)) (-(projS x W a (row5 o k) - projS x W b (row5 o k)))

/-- The running value: the five absolute differences subtracted from 0 one after another. -/
def negDist (x : SX.Idx → EReal) (W : SW.Idx → EReal) (a b : Fin 512) (o : Fin 100) : EReal :=
  ((((0 - absd x W a b o 0) - absd x W a b o 1) - absd x W a b o 2) - absd x W a b o 3) - absd x W a b o 4

/-- The distance is the sum of the five absolute differences. -/
theorem distS_eq_sum_absd (x : SX.Idx → EReal) (W : SW.Idx → EReal) (a b : Fin 512) (o : Fin 100) :
    distS x W a b o = ∑ k : Fin 5, absd x W a b o k := rfl

/-- The running value is the negated distance. -/
theorem negDist_eq (x : SX.Idx → EReal) (W : SW.Idx → EReal) (a b : Fin 512) (o : Fin 100) :
    negDist x W a b o = -(distS x W a b o) := by
  rw [distS_eq_sum_absd]
  exact Cert.NegSum.sub5_eq_neg_sum (fun k => absd x W a b o k) (fun k => Cert.NegSum.abs_nonneg _)

/-- Row r of block t of the batch: row 128 t + r. -/
def blockRow (t : Fin 4) (r : Fin 128) : Fin 512 := ⟨t.val * 128 + r.val, by have := t.isLt; have := r.isLt; omega⟩

@[simp] theorem blockRow_val (t : Fin 4) (r : Fin 128) : (blockRow t r).val = t.val * 128 + r.val := rfl

/-- Block t's partial sum: exp of the running value over the block's 128 rows. -/
def partS (x : SX.Idx → EReal) (W : SW.Idx → EReal) (a : Fin 512) (o : Fin 100) (t : Fin 4) : EReal :=
  ∑ r : Fin 128, Ideal.exp (negDist x W a (blockRow t r) o)

/-- The four partial sums add up to the sum over all batch rows. -/
theorem sum_partS (x : SX.Idx → EReal) (W : SW.Idx → EReal) (a : Fin 512) (o : Fin 100) :
    ∑ t : Fin 4, partS x W a o t = ∑ b : Fin 512, Ideal.exp (-(distS x W a b o)) :=
  Cert.BlockAcc.sum_block_sums 4 128 (by norm_num) (fun b : Fin 512 => Ideal.exp (-(distS x W a b o))) blockRow
    (fun _ _ => rfl) (partS x W a o) (fun t => by
      unfold partS
      exact Finset.sum_congr rfl fun r _ => by rw [negDist_eq])

/-- The accumulator after the four blocks, started at 0, is the sum over all batch rows. -/
theorem acc_partS (x : SX.Idx → EReal) (W : SW.Idx → EReal) (a : Fin 512) (o : Fin 100) :
    (((0 + partS x W a o 0) + partS x W a o 1) + partS x W a o 2) + partS x W a o 3
      = ∑ b : Fin 512, Ideal.exp (-(distS x W a b o)) := by
  rw [← sum_partS, Fin.sum_univ_four, zero_add]

/-- The accumulator after the four blocks, minus the constant 1, is the specification's feature. -/
theorem acc_partS_sub_one (x : SX.Idx → EReal) (W : SW.Idx → EReal) (a : Fin 512) (o : Fin 100) :
    ((((0 + partS x W a o 0) + partS x W a o 1) + partS x W a o 2) + partS x W a o 3) - Ideal.ofBits .f32 0x3F800000#32
      = mbdS x W a o := by
  rw [acc_partS]; rfl

/-! ## The same over an abstract [512, 5, 100] array of projections

The blocked arrangement reads the projection as an array `P b k o` (batch row, kernel dimension, output feature).
Everything above holds for such an array once its entries are the specification's projection entries. -/

/-- The running value over an array `P` of projections: the five absolute differences of rows p and q at feature o,
    subtracted from 0 one after another. -/
def negDistP (P : Fin 512 → Fin 5 → Fin 100 → EReal) (p q : Fin 512) (o : Fin 100) : EReal :=
  ((((0 - max (P p 0 o - P q 0 o) (-(P p 0 o - P q 0 o))) - max (P p 1 o - P q 1 o) (-(P p 1 o - P q 1 o)))
      - max (P p 2 o - P q 2 o) (-(P p 2 o - P q 2 o))) - max (P p 3 o - P q 3 o) (-(P p 3 o - P q 3 o)))
    - max (P p 4 o - P q 4 o) (-(P p 4 o - P q 4 o))

/-- Block j's partial sum over an array `P` of projections: the block's rows are j * 128 + r. -/
def partP (P : Fin 512 → Fin 5 → Fin 100 → EReal) (p : Fin 512) (o : Fin 100) (j : Fin 4) : EReal :=
  ∑ r : Fin 128, Ideal.exp (negDistP P p ⟨j.val * 128 + r.val, by have := j.isLt; have := r.isLt; omega⟩ o)

/-- At the specification's projection entries the running value over the array is the one above. -/
theorem negDistP_proj (x : SX.Idx → EReal) (W : SW.Idx → EReal) (p q : Fin 512) (o : Fin 100) :
    negDistP (fun b k o => projS x W b (row5 o k)) p q o = negDist x W p q o := rfl

/-- At the specification's projection entries the partial sum over the array is the one above. -/
theorem partP_proj (x : SX.Idx → EReal) (W : SW.Idx → EReal) (p : Fin 512) (o : Fin 100) (j : Fin 4) :
    partP (fun b k o => projS x W b (row5 o k)) p o j = partS x W p o j := rfl

/-- For an array whose entries are the specification's projection entries: the accumulator after the four blocks,
    minus the constant 1, is the specification's feature. -/
theorem accP_sub_one (x : SX.Idx → EReal) (W : SW.Idx → EReal) (P : Fin 512 → Fin 5 → Fin 100 → EReal)
    (hP : ∀ b k o, P b k o = projS x W b (row5 o k)) (p : Fin 512) (o : Fin 100) :
    ((((0 + partP P p o 0) + partP P p o 1) + partP P p o 2) + partP P p o 3) - Ideal.ofBits .f32 0x3F800000#32
      = mbdS x W p o := by
  have e : P = fun b k o => projS x W b (row5 o k) := funext fun b => funext fun k => funext fun o => hP b k o
  subst e
  simp only [partP_proj]
  exact acc_partS_sub_one x W p o

end MbdSpec

end
-- ==== Proof.PairBridge.lean ====
/-
  The pairwise stage's result over the specification's projection is the specification.

  If the [512, 5, 100] array P holds the specification's projection entries, P (b, k, o) = proj (b, 5 o + k), then the
  result in the blocked arrangement — the four blocks' partial sums of exp (running value) accumulated from 0, minus
  1, beside x — is the specification's result: the running value is the negated distance (non-negative terms) and the
  four blocks of 128 rows are all 512 rows.
-/
import proofs.«150588_j51926154609300_2_alg».proof.Proof.Spec
import proofs.«150588_j51926154609300_2_alg».proof.Proof.SpecBlocked
import proofs.«150588_j51926154609300_2_alg».proof.Proof.PairSpec

noncomputable section

open scoped BigOperators

namespace PairBridge

open Idealize.ShloMosaic Idealize.ShloMosaic.ValueIdx

/-- One block's partial sum over the array is the specification's. -/
theorem partP_eq (x : MbdSpec.SX.Idx → EReal) (W : MbdSpec.SW.Idx → EReal) (P : PairSpec.SP.Idx → EReal)
    (hP : ∀ (b : Fin 512) (k : Fin 5) (o : Fin 100), P (ix3 b k o) = MbdSpec.projS x W b (MbdSpec.row5 o k))
    (a : Fin 512) (o : Fin 100) (t : Fin 4) : PairSpec.partP P a o t = MbdSpec.partS x W a o t := by
  unfold PairSpec.partP MbdSpec.partS
  refine Finset.sum_congr rfl fun r _ => congrArg Ideal.exp ?_
  simp only [PairSpec.negDistP, PairSpec.absdP, hP]
  rfl

/-- The accumulated feature over the array is the specification's feature. -/
theorem mbdP_eq (x : MbdSpec.SX.Idx → EReal) (W : MbdSpec.SW.Idx → EReal) (P : PairSpec.SP.Idx → EReal)
    (hP : ∀ (b : Fin 512) (k : Fin 5) (o : Fin 100), P (ix3 b k o) = MbdSpec.projS x W b (MbdSpec.row5 o k))
    (a : Fin 512) (o : Fin 100) : PairSpec.mbdP P a o = MbdSpec.mbdS x W a o := by
  unfold PairSpec.mbdP
  rw [partP_eq x W P hP, partP_eq x W P hP, partP_eq x W P hP, partP_eq x W P hP]
  exact MbdSpec.acc_partS_sub_one x W a o

/-- The pairwise stage's result over the specification's projection is the specification's result. -/
theorem Gout_eq_G (x : MbdSpec.SX.Idx → EReal) (W : MbdSpec.SW.Idx → EReal) (P : PairSpec.SP.Idx → EReal)
    (hP : ∀ (b : Fin 512) (k : Fin 5) (o : Fin 100), P (ix3 b k o) = MbdSpec.projS x W b (MbdSpec.row5 o k)) :
    PairSpec.Gout x P = MbdSpec.G x W := by
  funext j
  obtain ⟨r, c, rfl⟩ : ∃ (r : Fin 512) (c : Fin 1124), j = ix2 r c := ⟨j 0, j 1, eq_ix2 j⟩
  rw [PairSpec.Gout_ix2, MbdSpec.G_ix2]
  by_cases h : c.val < 1024
  · rw [PairSpec.GoutC_left x P r c h, MbdSpec.Gc_left x W r c h]
  · rw [PairSpec.GoutC_right x P r c h, MbdSpec.Gc_right x W r c h, mbdP_eq x W P hP]

end PairBridge

end
-- ==== Proof.KIValue.lean ====
/-
  The kernel's value at the exact instance, first part: the array of shape [512, 5, 100] the second pallas_call reads
  holds, at (b, k, o), the projection of row b of x on row 5 o + k of W. The host permutes the rows of W so that
  row 100 k + o of the permuted weights is row 5 o + k of W; the first call multiplies x by the permuted weights
  transposed; the host reads the [512, 500] product as [512, 5, 100].
-/
import proofs.«150588_j51926154609300_2_alg».proof.Proof.KIFrame
import proofs.«150588_j51926154609300_2_alg».proof.Proof.KIRegion0Value
import proofs.«150588_j51926154609300_2_alg».proof.Proof.HostGlue
import proofs.«150588_j51926154609300_2_alg».proof.Proof.Spec
import proofs.«150588_j51926154609300_2_alg».proof.Proof.KIRegion1Value
import proofs.«150588_j51926154609300_2_alg».proof.Proof.PairBridge

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.MatmulNT (matmulNT)

variable (m : (ℓ : Loc nD τ sig) → Buf (Elt Ideal) ℓ)

/-- No host operation before the first call writes x. -/
theorem V1_main_arg0 (c : Dev nD) : V1 m c main_arg0 = m ((c : Thread nD τ).loc main_arg0) :=
  calc W1 m c (Proc.devRef .tc main_arg0)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Nor does the first call or the reshape after it. -/
theorem V3_main_arg0 (c : Dev nD) : V3 m c main_arg0 = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = m ((c : Thread nD τ).loc main_arg0) := V1_main_arg0 m c

/-- The projection array, entry by entry. -/
theorem V3_main_v4_at (c : Dev nD) (b : Fin 512) (k : Fin 5) (o : Fin 100) :
    (V3 m c main_v4 : S512x5x100.Idx → EReal) (ix3 b k o)
      = MbdSpec.projS (m ((c : Thread nD τ).loc main_arg0)) (m ((c : Thread nD τ).loc main_arg1)) b (MbdSpec.row5 o k) := by
  have e4 := Cert.KernelGlue.v4_at (W2 m c) b k o
  have e2 : (V1 m c main_v2 : S500x1024.Idx → EReal) = Cert.KernelGlue.permuted (m ((c : Thread nD τ).loc main_arg1) : S500x1024.Idx → EReal) :=
    Cert.KernelGlue.v2_term (W0 m c)
  have e3 : (W2 m c (Proc.devRef .tc main_v3) : S512x500.Idx → EReal)
      = matmulNT (m ((c : Thread nD τ).loc main_arg0)) (Cert.KernelGlue.permuted (m ((c : Thread nD τ).loc main_arg1) : S500x1024.Idx → EReal)) := by
    rw [← e2, ← V1_main_arg0 m c]; exact (W2_arr m c 2).trans (region0_value (V1 m) c)
  refine e4.trans ?_
  rw [e3, Cert.MatmulNT.matmulNT_ix2]
  unfold MbdSpec.projS
  simp only [Cert.KernelGlue.permuted_at]

/-! ## The result array -/

/-- The result array after the run is the specification's function of the two argument arrays: the second call
    leaves the blocked form of the pairwise stage over the projection array, which is the plain form. -/
theorem kernel_value (c : Dev nD) :
    (W4 m c main_v5 : S512x1124.Idx → EReal)
      = MbdSpec.G (m ((c : Thread nD τ).loc main_arg0)) (m ((c : Thread nD τ).loc main_arg1)) := by
  refine (W4_main_v5 m c).trans ((region1_value (V3 m) c).trans ?_)
  rw [V3_main_arg0]
  exact PairBridge.Gout_eq_G _ _ _ (V3_main_v4_at m c)

/-- The run with its result named: the result array ends at the specification's function of the arguments, and the
    arguments end as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v5) = MbdSpec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v5 (by decide))).trans (kernel_value m c),
     (h c _ (mem_uc main_arg0 (by decide))).trans (W4_main_arg0 m c),
     (h c _ (mem_uc main_arg1 (by decide))).trans (W4_main_arg1 m c)⟩) (run_all m ρ)

end Cert.KernelIdeal.Hand

end
-- ==== Proof.RefValue.lean ====
/-
  The reference's result is the specification `MbdSpec.G` of its two arguments, index by index.

  The reference computes, in this order: the projection x · Wᵀ as a [512, 500] array; its reshape to [512, 100, 5]
  (entry (b, o, k) is entry (b, 5 o + k) of the projection, by row-major order); the two broadcasts of it along a new
  batch axis, so that entry (a, b, o, k) of one is the projection of row a and of the other the projection of row b;
  their difference and its absolute value; the sum over k from the initial value 0; negation and exponential; the
  sum over b from the initial value 0; minus the constant 1; and the concatenation with x along the columns.
  Each stage is read at an index built from its coordinates, from the innermost outwards; the zero initial values
  vanish (0 + s = s); on the joined axis a column below 1024 reads x, a column c from 1024 on reads feature c - 1024.
-/
import proofs.«150588_j51926154609300_2_alg».proof.Proof.Gen.ReferenceIdeal.Read
import proofs.«150588_j51926154609300_2_alg».proof.Proof.Spec

noncomputable section

open scoped BigOperators

namespace Cert.RefValue

open Cert.ReferenceIdeal Cert.ReferenceIdeal.Gen Cert.ReferenceIdeal.Read Idealize.ShloMosaic Idealize.ShloMosaic.ValueIdx
  Idealize.SL.Sem Idealize.ShloMosaic.StableHlo MbdSpec

variable (x : (⟨S512x1024, .f32⟩ : BufTy).Contents (Elt Ideal)) (w : (⟨S500x1024, .f32⟩ : BufTy).Contents (Elt Ideal))

/-- The projection stage at (b, n) is the specification's projection entry. -/
theorem v0_at (b : Fin 512) (n : Fin 500) : val_main_v0 (F := Ideal) x w (ix2 b n) = projS x w b n := by
  rw [val_main_v0_apply]
  unfold projS
  refine Finset.sum_congr rfl fun i _ => ?_
  have el : lidx_main_v0 (ix2 b n) i = ix2 b i := funext fun a => by
    match a with | ⟨0, _⟩ => rfl | ⟨1, _⟩ => rfl
  have er : ridx_main_v0 (ix2 b n) i = ix2 n i := funext fun a => by
    match a with | ⟨0, _⟩ => rfl | ⟨1, _⟩ => rfl
  rw [el, er]

/-- The reshaped projection at (b, o, k) is the projection entry of row b against row 5 o + k of W. -/
theorem v1_at (b : Fin 512) (o : Fin 100) (k : Fin 5) :
    val_main_v1 (F := Ideal) x w (ix3 b o k) = projS x w b (row5 o k) := by
  rw [val_main_v1_apply]
  have e : idx_main_v1 (ix3 b o k) = ix2 b (row5 o k) := funext fun a => Fin.ext (by
    have hb := b.isLt; have ho := o.isLt; have hk := k.isLt
    match a with
    | ⟨0, _⟩ => show ((b.val * 100 + o.val) * 5 + k.val) / 500 = b.val; omega
    | ⟨1, _⟩ => show ((b.val * 100 + o.val) * 5 + k.val) % 500 = 5 * o.val + k.val; omega)
  rw [e, v0_at]

/-- The absolute difference at (a, b, o, k): rows a and b of the projection, at row 5 o + k of W. -/
theorem v7_at (a b : Fin 512) (o : Fin 100) (k : Fin 5) :
    val_main_v7 (F := Ideal) x w (ix4 a b o k)
      = max (projS x w a (row5 o k) - projS x w b (row5 o k)) (-(projS x w a (row5 o k) - projS x w b (row5 o k))) := by
  rw [val_main_v7_apply, val_main_v6_apply, val_main_v4_apply, val_main_v5_apply, val_main_v2_apply, val_main_v3_apply]
  have e1 : idx_main_v2 (idx_main_v4 (ix4 a b o k)) = ix3 a o k := funext fun d => by
    match d with | ⟨0, _⟩ => rfl | ⟨1, _⟩ => rfl | ⟨2, _⟩ => rfl
  have e2 : idx_main_v3 (idx_main_v5 (ix4 a b o k)) = ix3 b o k := funext fun d => by
    match d with | ⟨0, _⟩ => rfl | ⟨1, _⟩ => rfl | ⟨2, _⟩ => rfl
  rw [e1, e2, v1_at, v1_at]
  simp only [Ideal.hostAbsf_def, Ideal.absf_def, Ideal.subf_def]

/-- The sum over the five kernel dimensions at (a, b, o) is the specification's distance. -/
theorem v8_at (a b : Fin 512) (o : Fin 100) : val_main_v8 (F := Ideal) x w (ix3 a b o) = distS x w a b o := by
  rw [val_main_v8_apply, val_main_cst_apply]
  simp only [Ideal.ofBits_def, Ideal.ofBits_zero_f32, zero_add]
  unfold distS
  refine Finset.sum_congr rfl fun k _ => ?_
  have e : idx_main_v8 (ix3 a b o) k = ix4 a b o k := funext fun d => by
    match d with | ⟨0, _⟩ => rfl | ⟨1, _⟩ => rfl | ⟨2, _⟩ => rfl | ⟨3, _⟩ => rfl
  rw [e, v7_at]

/-- The exponential of the negated distance at (a, b, o). -/
theorem v10_at (a b : Fin 512) (o : Fin 100) :
    val_main_v10 (F := Ideal) x w (ix3 a b o) = Ideal.exp (-(distS x w a b o)) := by
  rw [val_main_v10_apply, val_main_v9_apply, v8_at]
  simp only [Ideal.hostUnary_exp_def, Ideal.hostNegf_def, Ideal.negf_def]

/-- The discrimination feature at (a, o) is the specification's. -/
theorem v13_at (a : Fin 512) (o : Fin 100) : val_main_v13 (F := Ideal) x w (ix2 a o) = mbdS x w a o := by
  rw [val_main_v13_apply, val_main_v11_apply, val_main_v12_apply, val_main_cst_1_apply, val_main_cst_0_apply]
  simp only [Ideal.ofBits_def, Ideal.ofBits_zero_f32, zero_add, Ideal.subf_def]
  unfold mbdS
  refine congrArg (· - _) (Finset.sum_congr rfl fun b _ => ?_)
  have e : idx_main_v11 (ix2 a o) b = ix3 a b o := funext fun d => by
    match d with | ⟨0, _⟩ => rfl | ⟨1, _⟩ => rfl | ⟨2, _⟩ => rfl
  rw [e, v10_at]

/-- The reference's result is the specification of its arguments. -/
theorem ref_is_G : val_main_v14 (F := Ideal) x w = G x w := by
  funext j
  obtain ⟨r, c, rfl⟩ : ∃ (r : Fin 512) (c : Fin 1124), j = ix2 r c := ⟨j 0, j 1, eq_ix2 j⟩
  rw [G_ix2]
  unfold val_main_v14
  by_cases h : c.val < 1024
  · rw [Gc_left x w r c h]
    generalize val_main_v13 (F := Ideal) x w = y
    exact concatenate_pair_apply_left (1 : Fin 2) x y concatenates_S512x1024_S512x100_S512x1124_d1 (ix2 r c) rfl
      (ix2 r ⟨c.val, h⟩) (fun b => by match b with | ⟨0, _⟩ => rfl | ⟨1, _⟩ => rfl)
  · rw [Gc_right x w r c h, ← v13_at]
    generalize val_main_v13 (F := Ideal) x w = y
    have hc := c.isLt
    exact concatenate_pair_apply_right (1 : Fin 2) x y concatenates_S512x1024_S512x100_S512x1124_d1 (ix2 r c) rfl rfl
      (ix2 r ⟨c.val - 1024, by omega⟩)
      (fun b hb => by
        match b with
        | ⟨0, _⟩ => rfl
        | ⟨1, _⟩ => exact absurd rfl hb)
      (by show c.val - 1024 + 1024 = c.val; omega)

end Cert.RefValue

end
-- ==== Proof.lean ====
/-
  The kernel computes, for x of shape [512, 1024] and W of shape [500, 1024], the array of shape [512, 1124] whose
  first 1024 columns are x and whose column 1024 + o of row a is
      sum over b < 512 of exp(- sum over k < 5 of |p a (5 o + k) - p b (5 o + k)|)  -  1,      p b n = sum_i x b i * W n i,
  and so does the reference. The kernel permutes the rows of W on the host (row 100 k + o of the permuted weights is
  row 5 o + k of W), multiplies in one pallas_call, reads the product as [512, 5, 100], and in a second pallas_call on
  a 4 x 4 grid accumulates, for each block of 128 rows a, the row sums of exp(0 - |d 0| - ... - |d 4|) over the four
  blocks of 128 rows b into an accumulator zeroed at the first block, storing x's rows and the accumulator minus one
  at the last. Over the extended reals the two agree: a difference's absolute value is non-negative, so the negated
  sum of five of them is the five subtracted from zero in turn; a sum over 512 rows is the sum of its four blocks'
  sums added in order from zero; changes of float format are the identity.
  The three frames: both kernel programs run as host segments and kernel regions in order, each region from its
  own body obligation at a generic grid point (the second region by the point's column, its accumulator carried in
  the invariant, the array its first two windows share held in two halves); the reference's frame is its run with
  the result dropped. No ideal-pass rewrite was applied, so the idealization claim is trivial.
-/
import proofs.«150588_j51926154609300_2_alg».proof.Defs
import proofs.«150588_j51926154609300_2_alg».proof.Proof.Gen.Kernel
import proofs.«150588_j51926154609300_2_alg».proof.Proof.Gen.Kernel.Skeleton
import proofs.«150588_j51926154609300_2_alg».proof.Proof.Gen.Kernel.Launch
import proofs.«150588_j51926154609300_2_alg».proof.Proof.Gen.Kernel.Regions
import proofs.«150588_j51926154609300_2_alg».proof.Proof.Gen.Kernel.Points
import proofs.«150588_j51926154609300_2_alg».proof.Proof.Gen.KernelIdeal
import proofs.«150588_j51926154609300_2_alg».proof.Proof.Gen.KernelIdeal.Skeleton
import proofs.«150588_j51926154609300_2_alg».proof.Proof.Gen.KernelIdeal.Launch
import proofs.«150588_j51926154609300_2_alg».proof.Proof.Gen.KernelIdeal.Regions
import proofs.«150588_j51926154609300_2_alg».proof.Proof.Gen.KernelIdeal.Points
import proofs.«150588_j51926154609300_2_alg».proof.Proof.Gen.ReferenceIdeal
import proofs.«150588_j51926154609300_2_alg».proof.Proof.Gen.Pre_finite_inputs
import proofs.«150588_j51926154609300_2_alg».proof.Proof.Gen.ReferenceIdeal.Read
import proofs.«150588_j51926154609300_2_alg».proof.Proof.KFrame
import proofs.«150588_j51926154609300_2_alg».proof.Proof.KIValue
import proofs.«150588_j51926154609300_2_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame m ρ
/-- So does the idealized kernel. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same function of the argument arrays in their result: the kernel's run
    names it, the reference's composed term is it, and the two memories agree on the arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefValue.ref_is_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
